-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S1x1 : Shape := ⟨2, ![1, 1]⟩
abbrev S16384x30 : Shape := ⟨2, ![16384, 30]⟩
abbrev S16384x1 : Shape := ⟨2, ![16384, 1]⟩
abbrev S16384 : Shape := ⟨1, ![16384]⟩
abbrev S16384x20 : Shape := ⟨2, ![16384, 20]⟩
abbrev S1x16384 : Shape := ⟨2, ![1, 16384]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16384x30, .f32⟩
  | .local _ .vmem, ⟨1, _⟩ => ⟨S16384x30, .f32⟩
  | .local _ .vmem, ⟨2, _⟩ => ⟨S16384x30, .f32⟩
  | .local _ .vmem, ⟨3, _⟩ => ⟨S16384x30, .f32⟩
  | .local _ .vmem, ⟨4, _⟩ => ⟨S1x1, .f32⟩
  | .local _ .vmem, ⟨5, _⟩ => ⟨S1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384x7x7x30_S802816x30 : S16384x7x7x30.ShapeCasts S802816x30
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16384x30_S16384x30_0_0 : ∀ a, (![0, 0] : Fin 2 → Nat) a + S16384x30.size a ≤ S16384x30.size a
  h_S16384x30 : 0 < S16384x30.numel
  shapeCasts_S16384x30_S16384x30 : S16384x30.ShapeCasts S16384x30
  slices_S16384x30_o0_4_S16384x1 : S16384x30.Slices ![0, 4] S16384x1
  shapeCasts_S16384x1_S16384 : S16384x1.ShapeCasts S16384
  natLt_1_32 : 1 < 32
  slices_S16384x30_o0_0_S16384x1 : S16384x30.Slices ![0, 0] S16384x1
  slices_S16384x30_o0_1_S16384x1 : S16384x30.Slices ![0, 1] S16384x1
  slices_S16384x30_o0_2_S16384x1 : S16384x30.Slices ![0, 2] S16384x1
  slices_S16384x30_o0_3_S16384x1 : S16384x30.Slices ![0, 3] S16384x1
  slices_S16384x30_o0_5_S16384x1 : S16384x30.Slices ![0, 5] S16384x1
  slices_S16384x30_o0_6_S16384x1 : S16384x30.Slices ![0, 6] S16384x1
  slices_S16384x30_o0_7_S16384x1 : S16384x30.Slices ![0, 7] S16384x1
  slices_S16384x30_o0_8_S16384x1 : S16384x30.Slices ![0, 8] S16384x1
  slices_S16384x30_o0_9_S16384x1 : S16384x30.Slices ![0, 9] S16384x1
  slices_S16384x30_o0_10_S16384x20 : S16384x30.Slices ![0, 10] S16384x20
  reduces_S16384x20_S16384 : S16384x20.Reduces [1] S16384
  shapeCasts_S16384_S1x16384 : S16384.ShapeCasts S1x16384
  reduces_S1x16384_S1 : S1x16384.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x30.size a ≤ S802816x30.size a
  hwx0_0 : ∀ i : grid0.Coords, EltTy.bits .f32 = 32 ∨ (Rect.block (s := S802816x30) S16384x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x30.size a ≤ S802816x30.size a
  hwx0_1 : ∀ i : grid0.Coords, EltTy.bits .f32 = 32 ∨ (Rect.block (s := S802816x30) S16384x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S16384x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x49x30 : Shape := ⟨3, ![16384, 49, 30]⟩
abbrev S16384x49x1 : Shape := ⟨3, ![16384, 49, 1]⟩
abbrev S16384x49 : Shape := ⟨2, ![16384, 49]⟩
abbrev S_ : Shape := ⟨0, ![]⟩
abbrev S16384x49x4 : Shape := ⟨3, ![16384, 49, 4]⟩
abbrev S16384x49x20 : Shape := ⟨3, ![16384, 49, 20]⟩

abbrev nBuf : Space → Nat
  | .hbm => 301
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x49x30, .f32⟩
  | 3 => ⟨S16384x49x30, .f32⟩
  | 4 => ⟨S16384x49x1, .f32⟩
  | 5 => ⟨S16384x49, .f32⟩
  | 6 => ⟨S_, .f32⟩
  | 7 => ⟨S16384x49, .f32⟩
  | 8 => ⟨S16384x49, .i1⟩
  | 9 => ⟨S16384x49, .f32⟩
  | 10 => ⟨S_, .f32⟩
  | 11 => ⟨S16384x49, .f32⟩
  | 12 => ⟨S16384x49, .f32⟩
  | 13 => ⟨S16384x49x4, .f32⟩
  | 14 => ⟨S16384x49x4, .f32⟩
  | 15 => ⟨S16384x49x1, .f32⟩
  | 16 => ⟨S16384x49, .f32⟩
  | 17 => ⟨S16384x49x1, .f32⟩
  | 18 => ⟨S16384x49, .f32⟩
  | 19 => ⟨S_, .f32⟩
  | 20 => ⟨S16384x49, .f32⟩
  | 21 => ⟨S16384x49, .f32⟩
  | 22 => ⟨S16384x49, .f32⟩
  | 23 => ⟨S16384x49x1, .f32⟩
  | 24 => ⟨S16384x49, .f32⟩
  | 25 => ⟨S16384x49x1, .f32⟩
  | 26 => ⟨S16384x49, .f32⟩
  | 27 => ⟨S_, .f32⟩
  | 28 => ⟨S16384x49, .f32⟩
  | 29 => ⟨S16384x49, .f32⟩
  | 30 => ⟨S16384x49, .f32⟩
  | 31 => ⟨S16384x49x1, .f32⟩
  | 32 => ⟨S16384x49, .f32⟩
  | 33 => ⟨S16384x49x1, .f32⟩
  | 34 => ⟨S16384x49, .f32⟩
  | 35 => ⟨S_, .f32⟩
  | 36 => ⟨S16384x49, .f32⟩
  | 37 => ⟨S16384x49, .f32⟩
  | 38 => ⟨S16384x49, .f32⟩
  | 39 => ⟨S16384x49x1, .f32⟩
  | 40 => ⟨S16384x49, .f32⟩
  | 41 => ⟨S16384x49x1, .f32⟩
  | 42 => ⟨S16384x49, .f32⟩
  | 43 => ⟨S_, .f32⟩
  | 44 => ⟨S16384x49, .f32⟩
  | 45 => ⟨S16384x49, .f32⟩
  | 46 => ⟨S16384x49, .f32⟩
  | 47 => ⟨S16384x49x1, .f32⟩
  | 48 => ⟨S16384x49, .f32⟩
  | 49 => ⟨S16384x49x1, .f32⟩
  | 50 => ⟨S16384x49, .f32⟩
  | 51 => ⟨S_, .f32⟩
  | 52 => ⟨S16384x49, .f32⟩
  | 53 => ⟨S16384x49, .f32⟩
  | 54 => ⟨S16384x49, .f32⟩
  | 55 => ⟨S16384x49x1, .f32⟩
  | 56 => ⟨S16384x49, .f32⟩
  | 57 => ⟨S16384x49x1, .f32⟩
  | 58 => ⟨S16384x49, .f32⟩
  | 59 => ⟨S_, .f32⟩
  | 60 => ⟨S16384x49, .f32⟩
  | 61 => ⟨S16384x49, .f32⟩
  | 62 => ⟨S16384x49, .f32⟩
  | 63 => ⟨S16384x49x1, .f32⟩
  | 64 => ⟨S16384x49, .f32⟩
  | 65 => ⟨S16384x49x1, .f32⟩
  | 66 => ⟨S16384x49, .f32⟩
  | 67 => ⟨S_, .f32⟩
  | 68 => ⟨S16384x49, .f32⟩
  | 69 => ⟨S16384x49, .f32⟩
  | 70 => ⟨S16384x49, .f32⟩
  | 71 => ⟨S16384x49x1, .f32⟩
  | 72 => ⟨S16384x49, .f32⟩
  | 73 => ⟨S16384x49x1, .f32⟩
  | 74 => ⟨S16384x49, .f32⟩
  | 75 => ⟨S_, .f32⟩
  | 76 => ⟨S16384x49, .f32⟩
  | 77 => ⟨S16384x49, .f32⟩
  | 78 => ⟨S16384x49, .f32⟩
  | 79 => ⟨S16384x49, .f32⟩
  | 80 => ⟨S16384x49, .f32⟩
  | 81 => ⟨S16384x49, .f32⟩
  | 82 => ⟨S_, .f32⟩
  | 83 => ⟨S_, .f32⟩
  | 84 => ⟨S16384x49, .f32⟩
  | 85 => ⟨S16384x49, .f32⟩
  | 86 => ⟨S16384x49, .f32⟩
  | 87 => ⟨S16384x49, .f32⟩
  | 88 => ⟨S16384x49, .f32⟩
  | 89 => ⟨S_, .f32⟩
  | 90 => ⟨S_, .f32⟩
  | 91 => ⟨S16384x49, .f32⟩
  | 92 => ⟨S16384x49, .f32⟩
  | 93 => ⟨S16384x49, .f32⟩
  | 94 => ⟨S16384x49, .f32⟩
  | 95 => ⟨S16384x49, .f32⟩
  | 96 => ⟨S16384x49, .f32⟩
  | 97 => ⟨S16384x49, .f32⟩
  | 98 => ⟨S16384x49, .f32⟩
  | 99 => ⟨S16384x49, .f32⟩
  | 100 => ⟨S16384x49, .f32⟩
  | 101 => ⟨S16384x49, .f32⟩
  | 102 => ⟨S16384x49, .f32⟩
  | 103 => ⟨S16384x49, .f32⟩
  | 104 => ⟨S_, .f32⟩
  | 105 => ⟨S16384x49, .f32⟩
  | 106 => ⟨S16384x49, .f32⟩
  | 107 => ⟨S16384x49, .f32⟩
  | 108 => ⟨S16384x49x4, .f32⟩
  | 109 => ⟨S16384x49x4, .f32⟩
  | 110 => ⟨S16384x49x1, .f32⟩
  | 111 => ⟨S16384x49, .f32⟩
  | 112 => ⟨S16384x49x1, .f32⟩
  | 113 => ⟨S16384x49, .f32⟩
  | 114 => ⟨S_, .f32⟩
  | 115 => ⟨S16384x49, .f32⟩
  | 116 => ⟨S16384x49, .f32⟩
  | 117 => ⟨S16384x49, .f32⟩
  | 118 => ⟨S16384x49x1, .f32⟩
  | 119 => ⟨S16384x49, .f32⟩
  | 120 => ⟨S16384x49x1, .f32⟩
  | 121 => ⟨S16384x49, .f32⟩
  | 122 => ⟨S_, .f32⟩
  | 123 => ⟨S16384x49, .f32⟩
  | 124 => ⟨S16384x49, .f32⟩
  | 125 => ⟨S16384x49, .f32⟩
  | 126 => ⟨S16384x49x1, .f32⟩
  | 127 => ⟨S16384x49, .f32⟩
  | _ => ⟨S16384x7x7x30, .f32⟩

abbrev hbmTy0_1 (i : Nat) : BufTy := match i % 128 with
  | 0 => ⟨S16384x49x1, .f32⟩
  | 1 => ⟨S16384x49, .f32⟩
  | 2 => ⟨S_, .f32⟩
  | 3 => ⟨S16384x49, .f32⟩
  | 4 => ⟨S16384x49, .f32⟩
  | 5 => ⟨S16384x49, .f32⟩
  | 6 => ⟨S16384x49x1, .f32⟩
  | 7 => ⟨S16384x49, .f32⟩
  | 8 => ⟨S16384x49x1, .f32⟩
  | 9 => ⟨S16384x49, .f32⟩
  | 10 => ⟨S_, .f32⟩
  | 11 => ⟨S16384x49, .f32⟩
  | 12 => ⟨S16384x49, .f32⟩
  | 13 => ⟨S16384x49, .f32⟩
  | 14 => ⟨S16384x49x1, .f32⟩
  | 15 => ⟨S16384x49, .f32⟩
  | 16 => ⟨S16384x49x1, .f32⟩
  | 17 => ⟨S16384x49, .f32⟩
  | 18 => ⟨S_, .f32⟩
  | 19 => ⟨S16384x49, .f32⟩
  | 20 => ⟨S16384x49, .f32⟩
  | 21 => ⟨S16384x49, .f32⟩
  | 22 => ⟨S16384x49x1, .f32⟩
  | 23 => ⟨S16384x49, .f32⟩
  | 24 => ⟨S16384x49x1, .f32⟩
  | 25 => ⟨S16384x49, .f32⟩
  | 26 => ⟨S_, .f32⟩
  | 27 => ⟨S16384x49, .f32⟩
  | 28 => ⟨S16384x49, .f32⟩
  | 29 => ⟨S16384x49, .f32⟩
  | 30 => ⟨S16384x49x1, .f32⟩
  | 31 => ⟨S16384x49, .f32⟩
  | 32 => ⟨S16384x49x1, .f32⟩
  | 33 => ⟨S16384x49, .f32⟩
  | 34 => ⟨S_, .f32⟩
  | 35 => ⟨S16384x49, .f32⟩
  | 36 => ⟨S16384x49, .f32⟩
  | 37 => ⟨S16384x49, .f32⟩
  | 38 => ⟨S16384x49x1, .f32⟩
  | 39 => ⟨S16384x49, .f32⟩
  | 40 => ⟨S16384x49x1, .f32⟩
  | 41 => ⟨S16384x49, .f32⟩
  | 42 => ⟨S_, .f32⟩
  | 43 => ⟨S16384x49, .f32⟩
  | 44 => ⟨S16384x49, .f32⟩
  | 45 => ⟨S16384x49, .f32⟩
  | 46 => ⟨S16384x49, .f32⟩
  | 47 => ⟨S16384x49, .f32⟩
  | 48 => ⟨S16384x49, .f32⟩
  | 49 => ⟨S_, .f32⟩
  | 50 => ⟨S_, .f32⟩
  | 51 => ⟨S16384x49, .f32⟩
  | 52 => ⟨S16384x49, .f32⟩
  | 53 => ⟨S16384x49, .f32⟩
  | 54 => ⟨S16384x49, .f32⟩
  | 55 => ⟨S16384x49, .f32⟩
  | 56 => ⟨S_, .f32⟩
  | 57 => ⟨S_, .f32⟩
  | 58 => ⟨S16384x49, .f32⟩
  | 59 => ⟨S16384x49, .f32⟩
  | 60 => ⟨S16384x49, .f32⟩
  | 61 => ⟨S16384x49, .f32⟩
  | 62 => ⟨S16384x49, .f32⟩
  | 63 => ⟨S16384x49, .f32⟩
  | 64 => ⟨S16384x49, .f32⟩
  | 65 => ⟨S16384x49, .f32⟩
  | 66 => ⟨S16384x49, .f32⟩
  | 67 => ⟨S16384x49, .f32⟩
  | 68 => ⟨S16384x49, .f32⟩
  | 69 => ⟨S16384x49, .f32⟩
  | 70 => ⟨S16384x49, .f32⟩
  | 71 => ⟨S_, .f32⟩
  | 72 => ⟨S16384x49, .f32⟩
  | 73 => ⟨S16384x49, .f32⟩
  | 74 => ⟨S16384x49, .f32⟩
  | 75 => ⟨S16384x49, .i1⟩
  | 76 => ⟨S16384x49x1, .i1⟩
  | 77 => ⟨S16384x49x4, .f32⟩
  | 78 => ⟨S16384x49x4, .f32⟩
  | 79 => ⟨S16384x49x4, .i1⟩
  | 80 => ⟨S16384x49x4, .f32⟩
  | 81 => ⟨S16384x49x1, .f32⟩
  | 82 => ⟨S16384x49, .f32⟩
  | 83 => ⟨S16384x49x1, .f32⟩
  | 84 => ⟨S16384x49, .f32⟩
  | 85 => ⟨S16384x49, .f32⟩
  | 86 => ⟨S16384x49x1, .f32⟩
  | 87 => ⟨S16384x49, .f32⟩
  | 88 => ⟨S16384x49x1, .f32⟩
  | 89 => ⟨S16384x49, .f32⟩
  | 90 => ⟨S16384x49, .f32⟩
  | 91 => ⟨S16384x49x1, .f32⟩
  | 92 => ⟨S16384x49, .f32⟩
  | 93 => ⟨S16384x49x1, .f32⟩
  | 94 => ⟨S16384x49, .f32⟩
  | 95 => ⟨S16384x49, .f32⟩
  | 96 => ⟨S16384x49, .f32⟩
  | 97 => ⟨S16384x49x1, .f32⟩
  | 98 => ⟨S16384x49, .f32⟩
  | 99 => ⟨S16384x49x1, .f32⟩
  | 100 => ⟨S16384x49, .f32⟩
  | 101 => ⟨S16384x49, .f32⟩
  | 102 => ⟨S16384x49, .f32⟩
  | 103 => ⟨S16384x49, .f32⟩
  | 104 => ⟨S16384x49x1, .f32⟩
  | 105 => ⟨S16384x49, .f32⟩
  | 106 => ⟨S16384x49, .f32⟩
  | 107 => ⟨S16384x49x1, .f32⟩
  | 108 => ⟨S16384x49, .f32⟩
  | 109 => ⟨S_, .f32⟩
  | 110 => ⟨S16384x49, .f32⟩
  | 111 => ⟨S16384x49, .f32⟩
  | 112 => ⟨S16384x49, .f32⟩
  | 113 => ⟨S16384x49, .f32⟩
  | 114 => ⟨S16384x49, .f32⟩
  | 115 => ⟨S16384x49, .f32⟩
  | 116 => ⟨S16384x49x1, .f32⟩
  | 117 => ⟨S16384x49, .f32⟩
  | 118 => ⟨S16384x49, .f32⟩
  | 119 => ⟨S16384x49x1, .f32⟩
  | 120 => ⟨S16384x49, .f32⟩
  | 121 => ⟨S_, .f32⟩
  | 122 => ⟨S16384x49, .f32⟩
  | 123 => ⟨S16384x49, .f32⟩
  | 124 => ⟨S16384x49, .f32⟩
  | 125 => ⟨S16384x49, .f32⟩
  | 126 => ⟨S16384x49, .f32⟩
  | 127 => ⟨S16384x49, .f32⟩
  | _ => ⟨S16384x7x7x30, .f32⟩

abbrev hbmTy0_2 (i : Nat) : BufTy := match i % 128 with
  | 0 => ⟨S16384x49, .f32⟩
  | 1 => ⟨S16384x49x1, .f32⟩
  | 2 => ⟨S16384x49, .f32⟩
  | 3 => ⟨S16384x49, .f32⟩
  | 4 => ⟨S16384x49, .f32⟩
  | 5 => ⟨S16384x49, .f32⟩
  | 6 => ⟨S_, .f32⟩
  | 7 => ⟨S16384x49, .f32⟩
  | 8 => ⟨S16384x49, .f32⟩
  | 9 => ⟨S16384x49x1, .f32⟩
  | 10 => ⟨S16384x49, .f32⟩
  | 11 => ⟨S16384x49x1, .f32⟩
  | 12 => ⟨S16384x49, .f32⟩
  | 13 => ⟨S16384x49, .f32⟩
  | 14 => ⟨S16384x49, .f32⟩
  | 15 => ⟨S16384x49x1, .f32⟩
  | 16 => ⟨S16384x49, .f32⟩
  | 17 => ⟨S16384x49x1, .f32⟩
  | 18 => ⟨S16384x49, .f32⟩
  | 19 => ⟨S16384x49, .f32⟩
  | 20 => ⟨S16384x49, .f32⟩
  | 21 => ⟨S16384x49, .f32⟩
  | 22 => ⟨S_, .f32⟩
  | 23 => ⟨S16384x49, .f32⟩
  | 24 => ⟨S16384x49, .f32⟩
  | 25 => ⟨S16384x49x20, .f32⟩
  | 26 => ⟨S16384x49x20, .f32⟩
  | 27 => ⟨S16384x49x20, .f32⟩
  | 28 => ⟨S16384x49x20, .f32⟩
  | 29 => ⟨S_, .f32⟩
  | 30 => ⟨S16384x49, .f32⟩
  | 31 => ⟨S16384x49, .f32⟩
  | 32 => ⟨S_, .f32⟩
  | 33 => ⟨S16384x49, .f32⟩
  | 34 => ⟨S16384x49, .f32⟩
  | 35 => ⟨S16384x49, .f32⟩
  | 36 => ⟨S16384x49, .f32⟩
  | 37 => ⟨S16384x49, .f32⟩
  | 38 => ⟨S16384x49, .f32⟩
  | 39 => ⟨S16384x49, .f32⟩
  | 40 => ⟨S16384x49, .f32⟩
  | 41 => ⟨S_, .f32⟩
  | 42 => ⟨S_, .f32⟩
  | 43 => ⟨S_, .f32⟩
  | 44 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_5 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_6 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_7 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_8 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_9 : Ref sig .tc := ⟨.hbm, 82, rfl⟩
abbrev main_call0_v0 : Ref sig .tc := ⟨.hbm, 83, rfl⟩
abbrev main_call0_v1 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_10 : Ref sig .tc := ⟨.hbm, 89, rfl⟩
abbrev main_call1_v0 : Ref sig .tc := ⟨.hbm, 90, rfl⟩
abbrev main_call1_v1 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_16 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_19 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_20 : Ref sig .tc := ⟨.hbm, 177, rfl⟩
abbrev main_call2_v0 : Ref sig .tc := ⟨.hbm, 178, rfl⟩
abbrev main_call2_v1 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_21 : Ref sig .tc := ⟨.hbm, 184, rfl⟩
abbrev main_call3_v0 : Ref sig .tc := ⟨.hbm, 185, rfl⟩
abbrev main_call3_v1 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_cst_22 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_call4_v0 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_cst_23 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_cst_24 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_cst_25 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_cst_26 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_cst_27 : Ref sig .tc := ⟨.hbm, 285, rfl⟩
abbrev main_v246 : Ref sig .tc := ⟨.hbm, 286, rfl⟩
abbrev main_v247 : Ref sig .tc := ⟨.hbm, 287, rfl⟩
abbrev main_cst_28 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_cst_29 : Ref sig .tc := ⟨.hbm, 297, rfl⟩
abbrev main_v256 : Ref sig .tc := ⟨.hbm, 298, rfl⟩
abbrev main_cst_30 : Ref sig .tc := ⟨.hbm, 299, rfl⟩
abbrev main_v257 : Ref sig .tc := ⟨.hbm, 300, rfl⟩

abbrev nD : Nat := 1
abbrev τ : Topo := Topo.v7x

variable {F : FTy → Type} [FloatOps F]

class Facts₀ : Prop where
  shapeCasts_S16384x7x7x30_S16384x49x30 : S16384x7x7x30.ShapeCasts S16384x49x30
  slices_S16384x49x30_S16384x49x1_0_0_4 : S16384x49x30.Slices ![0, 0, 4] S16384x49x1
  shapeCasts_S16384x49x1_S16384x49 : S16384x49x1.ShapeCasts S16384x49
  bcast_S_S16384x49 : S_.BroadcastsInDim S16384x49 (![] : Fin 0 → Fin S16384x49.rank)
  slices_S16384x49x30_S16384x49x4_0_0_0 : S16384x49x30.Slices ![0, 0, 0] S16384x49x4
  slices_S16384x49x4_S16384x49x1_0_0_0 : S16384x49x4.Slices ![0, 0, 0] S16384x49x1
  slices_S16384x49x4_S16384x49x1_0_0_2 : S16384x49x4.Slices ![0, 0, 2] S16384x49x1
  slices_S16384x49x4_S16384x49x1_0_0_1 : S16384x49x4.Slices ![0, 0, 1] S16384x49x1
  slices_S16384x49x4_S16384x49x1_0_0_3 : S16384x49x4.Slices ![0, 0, 3] S16384x49x1
  slices_S16384x49x30_S16384x49x4_0_0_5 : S16384x49x30.Slices ![0, 0, 5] S16384x49x4
  bcast_S16384x49_S16384x49x1_0_1 : S16384x49.BroadcastsInDim S16384x49x1 (![0, 1] : Fin 2 → Fin S16384x49x1.rank)
  bcast_S16384x49x1_S16384x49x4_0_1_2 : S16384x49x1.BroadcastsInDim S16384x49x4 (![0, 1, 2] : Fin 3 → Fin S16384x49x4.rank)
  slices_S16384x49x30_S16384x49x1_0_0_9 : S16384x49x30.Slices ![0, 0, 9] S16384x49x1
  slices_S16384x49x30_S16384x49x1_0_0_0 : S16384x49x30.Slices ![0, 0, 0] S16384x49x1
  slices_S16384x49x30_S16384x49x1_0_0_1 : S16384x49x30.Slices ![0, 0, 1] S16384x49x1
  slices_S16384x49x30_S16384x49x1_0_0_2 : S16384x49x30.Slices ![0, 0, 2] S16384x49x1
  slices_S16384x49x30_S16384x49x1_0_0_3 : S16384x49x30.Slices ![0, 0, 3] S16384x49x1
  slices_S16384x49x30_S16384x49x20_0_0_10 : S16384x49x30.Slices ![0, 0, 10] S16384x49x20
  reducesTo_S16384x49x20_S16384x49_d2 : S16384x49x20.ReducesTo [2] S16384x49
  h_S_ : 0 < S_.numel
  reducesTo_S16384x49_S_d0_1 : S16384x49.ReducesTo [0, 1] S_

variable [Facts₀]

class Facts : Prop extends Facts₀ where

variable [Facts]
-- ==== Proof.Cell.lean ====
/-
  The per-cell loss of a YOLO-style detection objective, as ONE scalar function on the extended reals.

  A cell is a row of 30 numbers: two predicted boxes (centre x, centre y, width, height, confidence) in
  columns 0–4 and 5–9, and 20 class scores in columns 10–29; the target row `a` has its one box in columns
  0–3, its objectness in column 4 and its class indicator in columns 10–29.  With
    iou(box₁, box₂) = inter / (|area₁| + |area₂| − inter + ε),
    inter = max(0, min(right edges) − max(left edges)) · max(0, min(top edges) − max(bottom edges)),
  an edge being centre ± extent / 2, the responsible predicted box is the first when its iou with the target
  box is strictly greater than the second's.  The loss of the cell is
    obj · (5 · (Δxy + Δwh) + Δconf + ½ · other² + cls) + (1 − obj) · ½ · ((a₄ − b₄)² + (a₄ − b₉)²)
  where obj = 1 when a₄ = 1 and 0 otherwise, Δxy and Δwh are the squared centre and squared square-root-extent
  differences to the responsible box (the predicted extents shifted by ε and taken in absolute value),
  Δconf the squared difference to its confidence, `other` the other box's confidence, and cls the sum over
  the 20 classes of the squared score differences.

  `cellWith` is that function with the class sum as a parameter, written one operation per line in the order
  both programs apply them (every operation is the exact one on the extended reals; a literal is its binary
  value); `classSum` is the class sum; `cell` puts the two together.
-/
import Idealize.ShloMosaic.PureOps.Ideal
import Idealize.ShloMosaic.PureOps.Ideal.Laws
import Idealize.ShloMosaic.Lib.ValueIdx

noncomputable section

namespace Cert.Yolo

open Idealize.ShloMosaic

/-- The loss of one cell from the target row `a`, the predicted row `b` and the cell's class sum `v228`:
    objectness, the two intersections-over-union, the choice of the responsible box, the coordinate,
    extent and confidence terms, and their weighted sum. -/
def cellWith (a b : Fin 30 → Ideal .f32) (v228 : Ideal .f32) : Ideal .f32 :=
  have v8 : Ideal .f32 := a ⟨4, by decide⟩
  have cst : Ideal .f32 := (Scalar.ofBits .f32 0x3F800000#32 : Ideal .f32)
  have v9 : Ideal .f32 := cst
  have v10 : BitVec 1 := FloatOps.cmpf (F := Ideal) (φ := .f32) .oeq v8 v9
  have v11 : BitVec 32 := (v10).setWidth 32
  have v12 : Ideal .f32 := (FloatOps.sitofp (F := Ideal) .f32 v11 : Ideal .f32)
  have cst_4 : Ideal .f32 := (Scalar.ofBits .f32 0x3F800000#32 : Ideal .f32)
  have v13 : Ideal .f32 := cst_4
  have v14 : Ideal .f32 := FloatOps.subf (F := Ideal) (φ := .f32) v13 v12
  have v16 : Ideal .f32 := a ⟨0, by decide⟩
  have v18 : Ideal .f32 := a ⟨1, by decide⟩
  have v20 : Ideal .f32 := a ⟨2, by decide⟩
  have v22 : Ideal .f32 := a ⟨3, by decide⟩
  have v24 : Ideal .f32 := b ⟨0, by decide⟩
  have v26 : Ideal .f32 := b ⟨1, by decide⟩
  have v28 : Ideal .f32 := b ⟨2, by decide⟩
  have v30 : Ideal .f32 := b ⟨3, by decide⟩
  have cst_5 : Ideal .f32 := (Scalar.ofBits .f32 0x40000000#32 : Ideal .f32)
  have v31 : Ideal .f32 := cst_5
  have v32 : Ideal .f32 := FloatOps.divf (F := Ideal) (φ := .f32) v20 v31
  have v33 : Ideal .f32 := FloatOps.subf (F := Ideal) (φ := .f32) v16 v32
  have cst_6 : Ideal .f32 := (Scalar.ofBits .f32 0x40000000#32 : Ideal .f32)
  have v34 : Ideal .f32 := cst_6
  have v35 : Ideal .f32 := FloatOps.divf (F := Ideal) (φ := .f32) v22 v34
  have v36 : Ideal .f32 := FloatOps.subf (F := Ideal) (φ := .f32) v18 v35
  have cst_7 : Ideal .f32 := (Scalar.ofBits .f32 0x40000000#32 : Ideal .f32)
  have v37 : Ideal .f32 := cst_7
  have v38 : Ideal .f32 := FloatOps.divf (F := Ideal) (φ := .f32) v20 v37
  have v39 : Ideal .f32 := FloatOps.addf (F := Ideal) (φ := .f32) v16 v38
  have cst_8 : Ideal .f32 := (Scalar.ofBits .f32 0x40000000#32 : Ideal .f32)
  have v40 : Ideal .f32 := cst_8
  have v41 : Ideal .f32 := FloatOps.divf (F := Ideal) (φ := .f32) v22 v40
  have v42 : Ideal .f32 := FloatOps.addf (F := Ideal) (φ := .f32) v18 v41
  have cst_9 : Ideal .f32 := (Scalar.ofBits .f32 0x40000000#32 : Ideal .f32)
  have v43 : Ideal .f32 := cst_9
  have v44 : Ideal .f32 := FloatOps.divf (F := Ideal) (φ := .f32) v28 v43
  have v45 : Ideal .f32 := FloatOps.subf (F := Ideal) (φ := .f32) v24 v44
  have cst_10 : Ideal .f32 := (Scalar.ofBits .f32 0x40000000#32 : Ideal .f32)
  have v46 : Ideal .f32 := cst_10
  have v47 : Ideal .f32 := FloatOps.divf (F := Ideal) (φ := .f32) v30 v46
  have v48 : Ideal .f32 := FloatOps.subf (F := Ideal) (φ := .f32) v26 v47
  have cst_11 : Ideal .f32 := (Scalar.ofBits .f32 0x40000000#32 : Ideal .f32)
  have v49 : Ideal .f32 := cst_11
  have v50 : Ideal .f32 := FloatOps.divf (F := Ideal) (φ := .f32) v28 v49
  have v51 : Ideal .f32 := FloatOps.addf (F := Ideal) (φ := .f32) v24 v50
  have cst_12 : Ideal .f32 := (Scalar.ofBits .f32 0x40000000#32 : Ideal .f32)
  have v52 : Ideal .f32 := cst_12
  have v53 : Ideal .f32 := FloatOps.divf (F := Ideal) (φ := .f32) v30 v52
  have v54 : Ideal .f32 := FloatOps.addf (F := Ideal) (φ := .f32) v26 v53
  have v55 : Ideal .f32 := FloatOps.minimumf (F := Ideal) (φ := .f32) v39 v51
  have v56 : Ideal .f32 := FloatOps.maximumf (F := Ideal) (φ := .f32) v33 v45
  have v57 : Ideal .f32 := FloatOps.subf (F := Ideal) (φ := .f32) v55 v56
  have cst_13 : Ideal .f32 := (Scalar.ofBits .f32 0x00000000#32 : Ideal .f32)
  have v58 : Ideal .f32 := cst_13
  have v59 : Ideal .f32 := FloatOps.maximumf (F := Ideal) (φ := .f32) v58 v57
  have v60 : Ideal .f32 := FloatOps.minimumf (F := Ideal) (φ := .f32) v42 v54
  have v61 : Ideal .f32 := FloatOps.maximumf (F := Ideal) (φ := .f32) v36 v48
  have v62 : Ideal .f32 := FloatOps.subf (F := Ideal) (φ := .f32) v60 v61
  have cst_14 : Ideal .f32 := (Scalar.ofBits .f32 0x00000000#32 : Ideal .f32)
  have v63 : Ideal .f32 := cst_14
  have v64 : Ideal .f32 := FloatOps.maximumf (F := Ideal) (φ := .f32) v63 v62
  have v65 : Ideal .f32 := FloatOps.mulf (F := Ideal) (φ := .f32) v59 v64
  have v66 : Ideal .f32 := FloatOps.subf (F := Ideal) (φ := .f32) v39 v33
  have v67 : Ideal .f32 := FloatOps.subf (F := Ideal) (φ := .f32) v42 v36
  have v68 : Ideal .f32 := FloatOps.mulf (F := Ideal) (φ := .f32) v66 v67
  have v69 : Ideal .f32 := FloatOps.absf (F := Ideal) (φ := .f32) v68
  have v70 : Ideal .f32 := FloatOps.subf (F := Ideal) (φ := .f32) v51 v45
  have v71 : Ideal .f32 := FloatOps.subf (F := Ideal) (φ := .f32) v54 v48
  have v72 : Ideal .f32 := FloatOps.mulf (F := Ideal) (φ := .f32) v70 v71
  have v73 : Ideal .f32 := FloatOps.absf (F := Ideal) (φ := .f32) v72
  have v74 : Ideal .f32 := FloatOps.addf (F := Ideal) (φ := .f32) v69 v73
  have v75 : Ideal .f32 := FloatOps.subf (F := Ideal) (φ := .f32) v74 v65
  have cst_15 : Ideal .f32 := (Scalar.ofBits .f32 0x358637BD#32 : Ideal .f32)
  have v76 : Ideal .f32 := cst_15
  have v77 : Ideal .f32 := FloatOps.addf (F := Ideal) (φ := .f32) v75 v76
  have v78 : Ideal .f32 := FloatOps.divf (F := Ideal) (φ := .f32) v65 v77
  have v80 : Ideal .f32 := a ⟨0, by decide⟩
  have v82 : Ideal .f32 := a ⟨1, by decide⟩
  have v84 : Ideal .f32 := a ⟨2, by decide⟩
  have v86 : Ideal .f32 := a ⟨3, by decide⟩
  have v88 : Ideal .f32 := b ⟨5, by decide⟩
  have v90 : Ideal .f32 := b ⟨6, by decide⟩
  have v92 : Ideal .f32 := b ⟨7, by decide⟩
  have v94 : Ideal .f32 := b ⟨8, by decide⟩
  have cst_16 : Ideal .f32 := (Scalar.ofBits .f32 0x40000000#32 : Ideal .f32)
  have v95 : Ideal .f32 := cst_16
  have v96 : Ideal .f32 := FloatOps.divf (F := Ideal) (φ := .f32) v84 v95
  have v97 : Ideal .f32 := FloatOps.subf (F := Ideal) (φ := .f32) v80 v96
  have cst_17 : Ideal .f32 := (Scalar.ofBits .f32 0x40000000#32 : Ideal .f32)
  have v98 : Ideal .f32 := cst_17
  have v99 : Ideal .f32 := FloatOps.divf (F := Ideal) (φ := .f32) v86 v98
  have v100 : Ideal .f32 := FloatOps.subf (F := Ideal) (φ := .f32) v82 v99
  have cst_18 : Ideal .f32 := (Scalar.ofBits .f32 0x40000000#32 : Ideal .f32)
  have v101 : Ideal .f32 := cst_18
  have v102 : Ideal .f32 := FloatOps.divf (F := Ideal) (φ := .f32) v84 v101
  have v103 : Ideal .f32 := FloatOps.addf (F := Ideal) (φ := .f32) v80 v102
  have cst_19 : Ideal .f32 := (Scalar.ofBits .f32 0x40000000#32 : Ideal .f32)
  have v104 : Ideal .f32 := cst_19
  have v105 : Ideal .f32 := FloatOps.divf (F := Ideal) (φ := .f32) v86 v104
  have v106 : Ideal .f32 := FloatOps.addf (F := Ideal) (φ := .f32) v82 v105
  have cst_20 : Ideal .f32 := (Scalar.ofBits .f32 0x40000000#32 : Ideal .f32)
  have v107 : Ideal .f32 := cst_20
  have v108 : Ideal .f32 := FloatOps.divf (F := Ideal) (φ := .f32) v92 v107
  have v109 : Ideal .f32 := FloatOps.subf (F := Ideal) (φ := .f32) v88 v108
  have cst_21 : Ideal .f32 := (Scalar.ofBits .f32 0x40000000#32 : Ideal .f32)
  have v110 : Ideal .f32 := cst_21
  have v111 : Ideal .f32 := FloatOps.divf (F := Ideal) (φ := .f32) v94 v110
  have v112 : Ideal .f32 := FloatOps.subf (F := Ideal) (φ := .f32) v90 v111
  have cst_22 : Ideal .f32 := (Scalar.ofBits .f32 0x40000000#32 : Ideal .f32)
  have v113 : Ideal .f32 := cst_22
  have v114 : Ideal .f32 := FloatOps.divf (F := Ideal) (φ := .f32) v92 v113
  have v115 : Ideal .f32 := FloatOps.addf (F := Ideal) (φ := .f32) v88 v114
  have cst_23 : Ideal .f32 := (Scalar.ofBits .f32 0x40000000#32 : Ideal .f32)
  have v116 : Ideal .f32 := cst_23
  have v117 : Ideal .f32 := FloatOps.divf (F := Ideal) (φ := .f32) v94 v116
  have v118 : Ideal .f32 := FloatOps.addf (F := Ideal) (φ := .f32) v90 v117
  have v119 : Ideal .f32 := FloatOps.minimumf (F := Ideal) (φ := .f32) v103 v115
  have v120 : Ideal .f32 := FloatOps.maximumf (F := Ideal) (φ := .f32) v97 v109
  have v121 : Ideal .f32 := FloatOps.subf (F := Ideal) (φ := .f32) v119 v120
  have cst_24 : Ideal .f32 := (Scalar.ofBits .f32 0x00000000#32 : Ideal .f32)
  have v122 : Ideal .f32 := cst_24
  have v123 : Ideal .f32 := FloatOps.maximumf (F := Ideal) (φ := .f32) v122 v121
  have v124 : Ideal .f32 := FloatOps.minimumf (F := Ideal) (φ := .f32) v106 v118
  have v125 : Ideal .f32 := FloatOps.maximumf (F := Ideal) (φ := .f32) v100 v112
  have v126 : Ideal .f32 := FloatOps.subf (F := Ideal) (φ := .f32) v124 v125
  have cst_25 : Ideal .f32 := (Scalar.ofBits .f32 0x00000000#32 : Ideal .f32)
  have v127 : Ideal .f32 := cst_25
  have v128 : Ideal .f32 := FloatOps.maximumf (F := Ideal) (φ := .f32) v127 v126
  have v129 : Ideal .f32 := FloatOps.mulf (F := Ideal) (φ := .f32) v123 v128
  have v130 : Ideal .f32 := FloatOps.subf (F := Ideal) (φ := .f32) v103 v97
  have v131 : Ideal .f32 := FloatOps.subf (F := Ideal) (φ := .f32) v106 v100
  have v132 : Ideal .f32 := FloatOps.mulf (F := Ideal) (φ := .f32) v130 v131
  have v133 : Ideal .f32 := FloatOps.absf (F := Ideal) (φ := .f32) v132
  have v134 : Ideal .f32 := FloatOps.subf (F := Ideal) (φ := .f32) v115 v109
  have v135 : Ideal .f32 := FloatOps.subf (F := Ideal) (φ := .f32) v118 v112
  have v136 : Ideal .f32 := FloatOps.mulf (F := Ideal) (φ := .f32) v134 v135
  have v137 : Ideal .f32 := FloatOps.absf (F := Ideal) (φ := .f32) v136
  have v138 : Ideal .f32 := FloatOps.addf (F := Ideal) (φ := .f32) v133 v137
  have v139 : Ideal .f32 := FloatOps.subf (F := Ideal) (φ := .f32) v138 v129
  have cst_26 : Ideal .f32 := (Scalar.ofBits .f32 0x358637BD#32 : Ideal .f32)
  have v140 : Ideal .f32 := cst_26
  have v141 : Ideal .f32 := FloatOps.addf (F := Ideal) (φ := .f32) v139 v140
  have v142 : Ideal .f32 := FloatOps.divf (F := Ideal) (φ := .f32) v129 v141
  have v143 : BitVec 1 := FloatOps.cmpf (F := Ideal) (φ := .f32) .ogt v78 v142
  have v145 : Ideal .f32 := b ⟨0, by decide⟩
  have v147 : Ideal .f32 := b ⟨5, by decide⟩
  have v148 : Ideal .f32 := Scalar.select v143 v145 v147
  have v150 : Ideal .f32 := b ⟨1, by decide⟩
  have v152 : Ideal .f32 := b ⟨6, by decide⟩
  have v153 : Ideal .f32 := Scalar.select v143 v150 v152
  have v155 : Ideal .f32 := b ⟨2, by decide⟩
  have v157 : Ideal .f32 := b ⟨7, by decide⟩
  have v158 : Ideal .f32 := Scalar.select v143 v155 v157
  have v160 : Ideal .f32 := b ⟨3, by decide⟩
  have v162 : Ideal .f32 := b ⟨8, by decide⟩
  have v163 : Ideal .f32 := Scalar.select v143 v160 v162
  have v165 : Ideal .f32 := b ⟨4, by decide⟩
  have v167 : Ideal .f32 := b ⟨9, by decide⟩
  have v168 : Ideal .f32 := Scalar.select v143 v165 v167
  have v170 : Ideal .f32 := b ⟨9, by decide⟩
  have v172 : Ideal .f32 := b ⟨4, by decide⟩
  have v173 : Ideal .f32 := Scalar.select v143 v170 v172
  have v175 : Ideal .f32 := a ⟨0, by decide⟩
  have v176 : Ideal .f32 := FloatOps.subf (F := Ideal) (φ := .f32) v175 v148
  have v177 : Ideal .f32 := FloatOps.mulf (F := Ideal) (φ := .f32) v176 v176
  have v179 : Ideal .f32 := a ⟨1, by decide⟩
  have v180 : Ideal .f32 := FloatOps.subf (F := Ideal) (φ := .f32) v179 v153
  have v181 : Ideal .f32 := FloatOps.mulf (F := Ideal) (φ := .f32) v180 v180
  have v182 : Ideal .f32 := FloatOps.addf (F := Ideal) (φ := .f32) v177 v181
  have v184 : Ideal .f32 := a ⟨2, by decide⟩
  have v185 : Ideal .f32 := FloatOps.sqrt (F := Ideal) (φ := .f32) v184
  have cst_27 : Ideal .f32 := (Scalar.ofBits .f32 0x358637BD#32 : Ideal .f32)
  have v186 : Ideal .f32 := cst_27
  have v187 : Ideal .f32 := FloatOps.addf (F := Ideal) (φ := .f32) v158 v186
  have v188 : Ideal .f32 := FloatOps.absf (F := Ideal) (φ := .f32) v187
  have v189 : Ideal .f32 := FloatOps.sqrt (F := Ideal) (φ := .f32) v188
  have v190 : Ideal .f32 := FloatOps.subf (F := Ideal) (φ := .f32) v185 v189
  have v191 : Ideal .f32 := FloatOps.mulf (F := Ideal) (φ := .f32) v190 v190
  have v193 : Ideal .f32 := a ⟨3, by decide⟩
  have v194 : Ideal .f32 := FloatOps.sqrt (F := Ideal) (φ := .f32) v193
  have cst_28 : Ideal .f32 := (Scalar.ofBits .f32 0x358637BD#32 : Ideal .f32)
  have v195 : Ideal .f32 := cst_28
  have v196 : Ideal .f32 := FloatOps.addf (F := Ideal) (φ := .f32) v163 v195
  have v197 : Ideal .f32 := FloatOps.absf (F := Ideal) (φ := .f32) v196
  have v198 : Ideal .f32 := FloatOps.sqrt (F := Ideal) (φ := .f32) v197
  have v199 : Ideal .f32 := FloatOps.subf (F := Ideal) (φ := .f32) v194 v198
  have v200 : Ideal .f32 := FloatOps.mulf (F := Ideal) (φ := .f32) v199 v199
  have v201 : Ideal .f32 := FloatOps.addf (F := Ideal) (φ := .f32) v191 v200
  have v203 : Ideal .f32 := a ⟨4, by decide⟩
  have v204 : Ideal .f32 := FloatOps.subf (F := Ideal) (φ := .f32) v203 v168
  have v205 : Ideal .f32 := FloatOps.mulf (F := Ideal) (φ := .f32) v204 v204
  have v206 : Ideal .f32 := FloatOps.mulf (F := Ideal) (φ := .f32) v173 v173
  have cst_29 : Ideal .f32 := (Scalar.ofBits .f32 0x3F000000#32 : Ideal .f32)
  have v207 : Ideal .f32 := cst_29
  have v208 : Ideal .f32 := FloatOps.mulf (F := Ideal) (φ := .f32) v207 v206
  have v210 : Ideal .f32 := a ⟨4, by decide⟩
  have v212 : Ideal .f32 := b ⟨4, by decide⟩
  have v213 : Ideal .f32 := FloatOps.subf (F := Ideal) (φ := .f32) v210 v212
  have v214 : Ideal .f32 := FloatOps.mulf (F := Ideal) (φ := .f32) v213 v213
  have v216 : Ideal .f32 := a ⟨4, by decide⟩
  have v218 : Ideal .f32 := b ⟨9, by decide⟩
  have v219 : Ideal .f32 := FloatOps.subf (F := Ideal) (φ := .f32) v216 v218
  have v220 : Ideal .f32 := FloatOps.mulf (F := Ideal) (φ := .f32) v219 v219
  have v221 : Ideal .f32 := FloatOps.addf (F := Ideal) (φ := .f32) v214 v220
  have cst_30 : Ideal .f32 := (Scalar.ofBits .f32 0x3F000000#32 : Ideal .f32)
  have v222 : Ideal .f32 := cst_30
  have v223 : Ideal .f32 := FloatOps.mulf (F := Ideal) (φ := .f32) v222 v221
  have v229 : Ideal .f32 := FloatOps.addf (F := Ideal) (φ := .f32) v182 v201
  have cst_32 : Ideal .f32 := (Scalar.ofBits .f32 0x40A00000#32 : Ideal .f32)
  have v230 : Ideal .f32 := cst_32
  have v231 : Ideal .f32 := FloatOps.mulf (F := Ideal) (φ := .f32) v230 v229
  have v232 : Ideal .f32 := FloatOps.addf (F := Ideal) (φ := .f32) v231 v205
  have v233 : Ideal .f32 := FloatOps.addf (F := Ideal) (φ := .f32) v232 v208
  have v234 : Ideal .f32 := FloatOps.addf (F := Ideal) (φ := .f32) v233 v228
  have v235 : Ideal .f32 := FloatOps.mulf (F := Ideal) (φ := .f32) v12 v234
  have v236 : Ideal .f32 := FloatOps.mulf (F := Ideal) (φ := .f32) v14 v223
  have v237 : Ideal .f32 := FloatOps.addf (F := Ideal) (φ := .f32) v235 v236
  v237

/-- The class term of a cell: the sum over the 20 classes (columns 10–29) of the squared difference of the
    target's and the prediction's scores. -/
def classSum (a b : Fin 30 → Ideal .f32) : Ideal .f32 :=
  ∑ k : Fin 20, FloatOps.mulf (F := Ideal) (φ := .f32)
    (FloatOps.subf (F := Ideal) (φ := .f32) (a ⟨10 + k.val, by omega⟩) (b ⟨10 + k.val, by omega⟩))
    (FloatOps.subf (F := Ideal) (φ := .f32) (a ⟨10 + k.val, by omega⟩) (b ⟨10 + k.val, by omega⟩))

/-- The loss of one cell. -/
def cell (a b : Fin 30 → Ideal .f32) : Ideal .f32 := cellWith a b (classSum a b)

end Cert.Yolo

end
-- ==== Proof.Layout.lean ====
/-
  Reading a block of cells at coordinates.

  A block is an [R, C] array: row `r` is one cell, column `k` one of its fields.  The kernel takes a field of
  every cell as the column slice [R, 1] at offset `k`, re-laid as a vector of length R; its class scores as the
  slice of `w` consecutive columns from offset `o`; and it sums the cells' losses by re-laying the length-R
  vector as one row [1, R] and adding along it.  Each of these, read at an index built from coordinates, is the
  operand at the evident entry.
-/
import Idealize.ShloMosaic.Lib.Pipeline.Value
import Idealize.ShloMosaic.Lib.ValueIdx
import Idealize.ShloMosaic.PureOps.Ideal.Laws

noncomputable section

namespace Cert.Yolo.Layout

open Idealize.ShloMosaic Idealize.ShloMosaic.ValueIdx

variable {α : Type}

/-- Field `k` of every cell: the [R, 1] column slice at offset `k`, re-laid as a length-R vector, holds at `r`
    the entry (r, k). -/
theorem column_apply {R C : Nat} (k : Nat) (hk : k < C) (v : (⟨2, ![R, C]⟩ : Shape).Idx → α)
    (h1 : (⟨2, ![R, C]⟩ : Shape).Slices ![0, k] ⟨2, ![R, 1]⟩)
    (h2 : (⟨2, ![R, 1]⟩ : Shape).ShapeCasts ⟨1, ![R]⟩) (r : Fin R) :
    shapeCast ⟨1, ![R]⟩ (extractStridedSlice ⟨2, ![R, 1]⟩ ![0, k] v h1) h2 (ix1 r) = v (ix2 r ⟨k, hk⟩) := by
  rw [shapeCast_apply _ h2 (ix1 r) (ix2 r (0 : Fin 1))
    (by rw [Shape.rowMajor_val_two, Shape.rowMajor_val_one]; show r.val * 1 + 0 = r.val; omega)]
  exact extractStridedSlice_apply ![0, k] v h1 (ix2 r 0) (ix2 r ⟨k, hk⟩) (fun a => match a with
    | ⟨0, _⟩ => by show r.val = 0 + r.val; omega
    | ⟨1, _⟩ => by show k = k + 0; omega)

/-- `w` consecutive fields from offset `o`: the slice holds at (r, j) the entry (r, o + j). -/
theorem fields_apply {R C w : Nat} (o : Nat) (v : (⟨2, ![R, C]⟩ : Shape).Idx → α)
    (h : (⟨2, ![R, C]⟩ : Shape).Slices ![0, o] ⟨2, ![R, w]⟩) (r : Fin R) (j : Fin w) (hj : o + j.val < C) :
    extractStridedSlice ⟨2, ![R, w]⟩ ![0, o] v h (ix2 r j) = v (ix2 r ⟨o + j.val, hj⟩) :=
  extractStridedSlice_apply ![0, o] v h (ix2 r j) (ix2 r ⟨o + j.val, hj⟩) (fun a => match a with
    | ⟨0, _⟩ => by show r.val = 0 + r.val; omega
    | ⟨1, _⟩ => by show o + j.val = o + j.val; rfl)

/-- A length-R vector re-laid as one row [1, R] holds at (0, r) its entry r. -/
theorem row_apply {R : Nat} (v : (⟨1, ![R]⟩ : Shape).Idx → α) (h : (⟨1, ![R]⟩ : Shape).ShapeCasts ⟨2, ![1, R]⟩)
    (r : Fin R) : shapeCast ⟨2, ![1, R]⟩ v h (ix2 (0 : Fin 1) r) = v (ix1 r) :=
  shapeCast_apply v h (ix2 0 r) (ix1 r)
    (by rw [Shape.rowMajor_val_two, Shape.rowMajor_val_one]; show r.val = 0 * R + r.val; omega)

/-- A one-entry vector re-laid as [1, 1] holds that entry. -/
theorem unit_apply (v : (⟨1, ![1]⟩ : Shape).Idx → α) (h : (⟨1, ![1]⟩ : Shape).ShapeCasts ⟨2, ![1, 1]⟩)
    (j : (⟨2, ![1, 1]⟩ : Shape).Idx) : shapeCast ⟨2, ![1, 1]⟩ v h j = v (ix1 (0 : Fin 1)) :=
  shapeCast_apply v h j (ix1 0)
    (by rw [Shape.rowMajor_val_two, Shape.rowMajor_val_one]
        have h0 : (j 0).val < 1 := (j 0).isLt
        have h1 : (j 1).val < 1 := (j 1).isLt
        show 0 = (j 0).val * 1 + (j 1).val; omega)

/-- Adding along the columns of an [R, w] array: the reduced index `r` with column `k` put back is (r, k). -/
theorem lift_cols {R w : Nat} (h : (⟨2, ![R, w]⟩ : Shape).Reduces [1] (⟨1, ![R]⟩ : Shape)) (r : Fin R)
    (k : Fin ((⟨2, ![R, w]⟩ : Shape).size 1)) : h.lift (ix1 r) k = ix2 r (⟨k.val, k.isLt⟩ : Fin w) := by
  funext c; apply Fin.ext
  fin_cases c <;> rfl

/-- Every index of a [1, 1] array is (0, 0). -/
theorem idx11 (j : (⟨2, ![1, 1]⟩ : Shape).Idx) : j = ix2 (0 : Fin 1) (0 : Fin 1) := by
  funext a; apply Fin.ext
  have h0 : (j 0).val < 1 := (j 0).isLt
  have h1 : (j 1).val < 1 := (j 1).isLt
  match a with
  | ⟨0, _⟩ => show (j 0).val = 0; omega
  | ⟨1, _⟩ => show (j 1).val = 0; omega

end Cert.Yolo.Layout

end
-- ==== Proof.KernelCell.lean ====
/-
  The kernel, read at the extended reals: one grid point, the accumulation over the grid, and the result.

  At a grid point the body loads a block of 16384 cells from each argument (`x0` the targets, `x1` the
  predictions; a cell is a row of 30 numbers), computes every cell's loss, adds the 16384 losses up, and adds that
  block sum to the accumulator `acc` (a single number).  `lossVec x0 x1` is the vector of the cells' losses as
  the body computes it, `blockPay x0 x1 acc` the value it stores back into the accumulator.  Read at the extended
  reals, entry `r` of `lossVec` is `cell` of row `r` of the two blocks (`lossVec_apply`: every operation of
  the body is pointwise except the column slices, which read a row's field, and the sum over the 20 class columns),
  so the stored value is `acc + ∑ r, cell (row r of x0) (row r of x1)` (`blockPay_apply`).

  The accumulator is a scratch buffer carried from point to point, zeroed at the first; the output block is a copy
  of it (`sout_A`, `out_A`, `sout_B`, `out_B`: what the body's stores leave).  So after point `n` both hold the
  running total `accAt` (`outsAt_eq`, by induction on the point); the output block is written back once, after
  the last point, and is the whole [1, 1] result array (`final2`); the host re-lays it as a scalar and divides by
  16384 (`tail_eq`, `run`).  Row `r` of the block at point `t` is cell 16384 t + r of the argument re-laid as
  [802816, 30] (`iblk0_row`, `iblk1_row`), so the result array holds zero plus the sum, over the 49 points and
  the 16384 cells of each, of the cells' losses (`result_apply`).
-/
import proofs.«165325_j53360673686126_1_alg».proof.Proof.Gen.KernelIdeal.Frame
import Idealize.ShloMosaic.Lib.Pipeline.Value
import Idealize.ShloMosaic.Lib.StableHlo.Run
import Idealize.ShloMosaic.Lib.Tactic
import proofs.«165325_j53360673686126_1_alg».proof.Proof.Cell
import proofs.«165325_j53360673686126_1_alg».proof.Proof.Layout

noncomputable section

namespace Cert.Yolo.Kernel

open Cert.KernelIdeal Cert.KernelIdeal.Gen Idealize.ShloMosaic Idealize.ShloMosaic.ValueIdx
open Idealize.ShloMosaic.TcCoe Idealize.SL.Sem
open Idealize.ShloMosaic.Pipeline (Dat)
open Cert.Yolo Cert.Yolo.Layout

variable {F : FTy → Type} [FloatOps F]

/-- The choice of the responsible box for every cell of a block: whether the first predicted box's
    intersection-over-union with the target box is strictly greater than the second's. -/
def best (x0 x1 : Vec F S16384x30 .f32) : IVec S16384 1 :=
  k0_pay29 (k0_pay19 (k0_pay10 x1) (k0_pay11 x1) (k0_pay12 x1) (k0_pay13 x1) (k0_pay14 x0) (k0_pay15 x0) (k0_pay16 x0)
      (k0_pay17 x0) (k0_pay18 x1))
    (k0_pay20 (k0_pay2 x0)) (k0_pay21 (k0_pay2 x0)) (k0_pay22 (k0_pay2 x0)) (k0_pay23 (k0_pay2 x0))
    (k0_pay24 (k0_pay3 x1)) (k0_pay25 (k0_pay3 x1)) (k0_pay26 (k0_pay3 x1)) (k0_pay27 (k0_pay3 x1)) (k0_pay28 (k0_pay2 x0))

/-- The losses of the block's 16384 cells, as the body computes them from the block's columns. -/
def lossVec (x0 x1 : Vec F S16384x30 .f32) : FVec F S16384 .f32 :=
  have v4 : FVec F S16384x30 .f32 := k0_pay2 x0
  have v6 : FVec F S16384x30 .f32 := k0_pay3 x1
  have v12 : FVec F S16384 .f32 := k0_pay4 x0
  have v14 : FVec F S16384 .f32 := k0_pay5 x0
  have v143 : IVec S16384 1 := best x0 x1
  have v173 : FVec F S16384 .f32 := k0_pay32 v6 v143
  have v182 : FVec F S16384 .f32 := k0_pay33 v4 v6 v143 (k0_pay30 v6) (k0_pay31 v6)
  have v201 : FVec F S16384 .f32 := k0_pay34 v4 v6 v143
  have v205 : FVec F S16384 .f32 := k0_pay35 v4 v6 v143
  have v206 : FVec F S16384 .f32 := mulf v173 v173
  have cst_29 : F .f32 := Scalar.ofBits .f32 0x3F000000#32
  have v207 : FVec F S16384 .f32 := broadcast S16384 cst_29
  have v208 : FVec F S16384 .f32 := mulf v207 v206
  have v209 : FVec F S16384x1 .f32 := extractStridedSlice S16384x1 ![0, 4] v4 slices_S16384x30_o0_4_S16384x1
  have v210 : FVec F S16384 .f32 := shapeCast S16384 v209 shapeCasts_S16384x1_S16384
  have v211 : FVec F S16384x1 .f32 := extractStridedSlice S16384x1 ![0, 4] v6 slices_S16384x30_o0_4_S16384x1
  have v212 : FVec F S16384 .f32 := shapeCast S16384 v211 shapeCasts_S16384x1_S16384
  have v213 : FVec F S16384 .f32 := subf v210 v212
  have v214 : FVec F S16384 .f32 := mulf v213 v213
  have v215 : FVec F S16384x1 .f32 := extractStridedSlice S16384x1 ![0, 4] v4 slices_S16384x30_o0_4_S16384x1
  have v216 : FVec F S16384 .f32 := shapeCast S16384 v215 shapeCasts_S16384x1_S16384
  have v217 : FVec F S16384x1 .f32 := extractStridedSlice S16384x1 ![0, 9] v6 slices_S16384x30_o0_9_S16384x1
  have v218 : FVec F S16384 .f32 := shapeCast S16384 v217 shapeCasts_S16384x1_S16384
  have v219 : FVec F S16384 .f32 := subf v216 v218
  have v220 : FVec F S16384 .f32 := mulf v219 v219
  have v221 : FVec F S16384 .f32 := addf v214 v220
  have cst_30 : F .f32 := Scalar.ofBits .f32 0x3F000000#32
  have v222 : FVec F S16384 .f32 := broadcast S16384 cst_30
  have v223 : FVec F S16384 .f32 := mulf v222 v221
  have v224 : FVec F S16384x20 .f32 := extractStridedSlice S16384x20 ![0, 10] v4 slices_S16384x30_o0_10_S16384x20
  have v225 : FVec F S16384x20 .f32 := extractStridedSlice S16384x20 ![0, 10] v6 slices_S16384x30_o0_10_S16384x20
  have v226 : FVec F S16384x20 .f32 := subf v224 v225
  have v227 : FVec F S16384x20 .f32 := mulf v226 v226
  have v228 : FVec F S16384 .f32 := multiReduction .add [1] S16384 v227 0x00000000#32 reduces_S16384x20_S16384 (.inl rfl) rfl
  have v229 : FVec F S16384 .f32 := addf v182 v201
  have cst_32 : F .f32 := Scalar.ofBits .f32 0x40A00000#32
  have v230 : FVec F S16384 .f32 := broadcast S16384 cst_32
  have v231 : FVec F S16384 .f32 := mulf v230 v229
  have v232 : FVec F S16384 .f32 := addf v231 v205
  have v233 : FVec F S16384 .f32 := addf v232 v208
  have v234 : FVec F S16384 .f32 := addf v233 v228
  have v235 : FVec F S16384 .f32 := mulf v12 v234
  have v236 : FVec F S16384 .f32 := mulf v14 v223
  have v237 : FVec F S16384 .f32 := addf v235 v236
  v237

/-- What the body stores back into the accumulator: the accumulator plus the sum of the block's losses. -/
def blockPay (x0 x1 : Vec F S16384x30 .f32) (acc : Vec F S1x1 .f32) : FVec F S1x1 .f32 :=
  shapeCast S1x1 (addf acc (broadcast S1x1 (extractAt ![0, 0] (shapeCast S1x1
    (multiReduction .add [1] S1 (shapeCast S1x16384 (lossVec x0 x1) shapeCasts_S16384_S1x16384) 0x00000000#32
      reduces_S1x16384_S1 (.inl rfl) rfl) shapeCasts_S1_S1x1) inpos_S1x1_p0_0))) shapeCasts_S1x1_S1x1

/-- It is the body's last payload at the values the body passes it. -/
theorem blockPay_eq (x0 x1 : Vec F S16384x30 .f32) (acc : Vec F S1x1 .f32) :
    k0_pay36 (k0_pay2 x0) (k0_pay3 x1) (k0_pay4 x0) (k0_pay5 x0) (k0_pay32 (k0_pay3 x1) (best x0 x1))
      (k0_pay33 (k0_pay2 x0) (k0_pay3 x1) (best x0 x1) (k0_pay30 (k0_pay3 x1)) (k0_pay31 (k0_pay3 x1)))
      (k0_pay34 (k0_pay2 x0) (k0_pay3 x1) (best x0 x1)) (k0_pay35 (k0_pay2 x0) (k0_pay3 x1) (best x0 x1)) acc
    = blockPay x0 x1 acc := rfl

/-! ## At the extended reals -/

/-- Row `r` of a block: one cell's 30 numbers. -/
abbrev row (x : Vec Ideal S16384x30 .f32) (r : Fin 16384) : Fin 30 → Ideal .f32 := fun k => x (ix2 r k)

/-- The class term: the sum along the 20 class columns of the squared differences, at cell `r`. -/
theorem classes_apply (v4 v6 : Vec Ideal S16384x30 .f32) (h1 : S16384x30.Slices ![0, 10] S16384x20)
    (h2 : S16384x20.Reduces [1] S16384) (hφ : FKind.Formats .f32) (hacc : (0x00000000#32 : BitVec 32) = 0x00000000#32)
    (r : Fin 16384) :
    multiReduction .add [1] S16384
      (mulf (subf (extractStridedSlice S16384x20 ![0, 10] v4 h1) (extractStridedSlice S16384x20 ![0, 10] v6 h1))
        (subf (extractStridedSlice S16384x20 ![0, 10] v4 h1) (extractStridedSlice S16384x20 ![0, 10] v6 h1)))
      0x00000000#32 h2 hφ hacc (ix1 r)
    = classSum (row v4 r) (row v6 r) := by
  refine (Ideal.multiReduction_add_single _ 0x00000000#32 h2 hφ hacc (ix1 r)).trans ?_
  unfold classSum
  show ∑ k : Fin 20, _ = _
  refine Finset.sum_congr rfl fun k _ => ?_
  rw [lift_cols h2 r k]
  simp only [mulf_apply, subf_apply]
  rw [fields_apply 10 v4 h1 r ⟨k.val, k.isLt⟩ (by have := k.isLt; omega),
    fields_apply 10 v6 h1 r ⟨k.val, k.isLt⟩ (by have := k.isLt; omega)]
  rfl

set_option maxRecDepth 65536 in
set_option maxHeartbeats 4000000 in
/-- Entry `r` of the block's loss vector is the loss of cell `r`: every operation acts entry by entry, a column
    slice reads the row's field, and the class sum is `classes_apply`. -/
theorem lossVec_apply (x0 x1 : Vec Ideal S16384x30 .f32) (r : Fin 16384) :
    lossVec x0 x1 (ix1 r) = cell (row x0 r) (row x1 r) := by
  unfold cell
  rw [← classes_apply x0 x1 slices_S16384x30_o0_10_S16384x20 reduces_S16384x20_S16384 (.inl rfl) rfl r]
  unfold lossVec best cellWith
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36,
    shapeCast_self, addf_apply, subf_apply, mulf_apply, divf_apply, maximumf_apply, minimumf_apply, broadcast_apply,
    cmpf_apply, extui_apply, sitofp_apply, select_apply, absf, sqrt,
    column_apply 0 (by decide : 0 < 30), column_apply 1 (by decide : 1 < 30), column_apply 2 (by decide : 2 < 30),
    column_apply 3 (by decide : 3 < 30), column_apply 4 (by decide : 4 < 30), column_apply 5 (by decide : 5 < 30),
    column_apply 6 (by decide : 6 < 30), column_apply 7 (by decide : 7 < 30), column_apply 8 (by decide : 8 < 30),
    column_apply 9 (by decide : 9 < 30),
    Ideal.addf_def, Ideal.subf_def, Ideal.mulf_def, Ideal.divf_def, Ideal.maximumf_def, Ideal.minimumf_def, Ideal.sqrt_def, row]

/-- The stored value: the accumulator plus the sum over the block's cells of their losses. -/
theorem blockPay_apply (x0 x1 : Vec Ideal S16384x30 .f32) (acc : Vec Ideal S1x1 .f32) (j : S1x1.Idx) :
    blockPay x0 x1 acc j = acc j + ∑ r : Fin 16384, cell (row x0 r) (row x1 r) := by
  unfold blockPay
  rw [shapeCast_self, addf_apply, broadcast_apply]
  refine congrArg (acc j + ·) ?_
  unfold extractAt
  rw [unit_apply]
  refine (Ideal.multiReduction_add_single _ 0x00000000#32 reduces_S1x16384_S1 (.inl rfl) rfl (ix1 0)).trans ?_
  show ∑ k : Fin 16384, _ = _
  refine Finset.sum_congr rfl fun k _ => ?_
  rw [lift_cols reduces_S1x16384_S1 (0 : Fin 1) k]
  exact (row_apply _ shapeCasts_S16384_S1x16384 k).trans (lossVec_apply x0 x1 k)

/-! ## What the body leaves at a grid point

  The accumulator is a one-number scratch buffer carried from point to point; the output block is a copy of it.  At
  the first grid point the body first stores zero into the accumulator, so the value it adds the block sum to is
  zero; at every later point it is what the point before left. -/

section Pieces

variable {F : FTy → Type} [FloatOps F]

theorem hz : (![0, 0] : Fin 2 → Nat) = fun _ => 0 := funext fun a => by fin_cases a <;> rfl

/-- A load of the whole buffer after stores of which the LAST wrote the whole buffer reads that last store's
    value. -/
theorem readCov_last_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- After a later grid point the accumulator holds what it held plus the block's sum. -/
theorem sout_B (c : Dev nD) (i : grid0.Coords) (a1 : Memref sig .tc .vmem S16384x30 .f32) (h1 : a1.IsWhole) (a2 : Memref sig .tc .vmem S16384x30 .f32) (h2 : a2.IsWhole) (a3 : Memref sig .tc .vmem S1x1 .f32) (h3 : a3.IsWhole) (a4 : Memref sig .tc .vmem S1x1 .f32) (h4 : a4.IsWhole) (hc : ¬cond0_0 i) (x0 x1 : Vec F S16384x30 .f32) (xs0 : Vec F S1x1 .f32) :
    sout0_B_0 c i a1 h1 a2 h2 a3 h3 a4 h4 hc x0 x1 xs0 = blockPay x0 x1 xs0 := by
  unfold sout0_B_0
  rw [View.read_writes_eq_canon _ _ _ (scover0_B_0 c i a1 h1 a2 h2 a3 h3 a4 h4 hc x0 x1 xs0)]
  unfold kernelRun0_B
  dsimp only
  sl_unfold_words
  rw [View.canon_unit_zero hz]
  simp only [View.readAt_eq_ld, h1.read_unread, h2.read_unread, h4.read_unread, View.ld_unit_zero (S := S16384x30) hz,
    View.ld_unit_zero (S := S1x1) hz]
  exact blockPay_eq x0 x1 xs0

/-- … and the output block holds the same value: it is stored from a load of the accumulator. -/
theorem out_B (c : Dev nD) (i : grid0.Coords) (a1 : Memref sig .tc .vmem S16384x30 .f32) (h1 : a1.IsWhole) (a2 : Memref sig .tc .vmem S16384x30 .f32) (h2 : a2.IsWhole) (a3 : Memref sig .tc .vmem S1x1 .f32) (h3 : a3.IsWhole) (a4 : Memref sig .tc .vmem S1x1 .f32) (h4 : a4.IsWhole) (hc : ¬cond0_0 i) (x0 x1 : Vec F S16384x30 .f32) (xs0 : Vec F S1x1 .f32) :
    out0_B_2 c i a1 h1 a2 h2 a3 h3 a4 h4 hc x0 x1 xs0 = blockPay x0 x1 xs0 := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero hz, View.readCov_unit_zero (S := S1x1) _ hz]
  simp only [View.readAt_eq_ld, h1.read_unread, h2.read_unread, h4.read_unread, View.ld_unit_zero (S := S16384x30) hz,
    View.ld_unit_zero (S := S1x1) hz]
  exact blockPay_eq x0 x1 xs0

/-- After the first grid point the accumulator holds zero plus the block's sum. -/
theorem sout_A (c : Dev nD) (i : grid0.Coords) (a1 : Memref sig .tc .vmem S16384x30 .f32) (h1 : a1.IsWhole) (a2 : Memref sig .tc .vmem S16384x30 .f32) (h2 : a2.IsWhole) (a3 : Memref sig .tc .vmem S1x1 .f32) (h3 : a3.IsWhole) (a4 : Memref sig .tc .vmem S1x1 .f32) (h4 : a4.IsWhole) (hc : cond0_0 i) (x0 x1 : Vec F S16384x30 .f32) :
    sout0_A_0 c i a1 h1 a2 h2 a3 h3 a4 h4 hc x0 x1 = blockPay x0 x1 k0_pay1 := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S16384x30) hz]
  exact blockPay_eq x0 x1 k0_pay1

/-- … and so does the output block. -/
theorem out_A (c : Dev nD) (i : grid0.Coords) (a1 : Memref sig .tc .vmem S16384x30 .f32) (h1 : a1.IsWhole) (a2 : Memref sig .tc .vmem S16384x30 .f32) (h2 : a2.IsWhole) (a3 : Memref sig .tc .vmem S1x1 .f32) (h3 : a3.IsWhole) (a4 : Memref sig .tc .vmem S1x1 .f32) (h4 : a4.IsWhole) (hc : cond0_0 i) (x0 x1 : Vec F S16384x30 .f32) :
    out0_A_2 c i a1 h1 a2 h2 a3 h3 a4 h4 hc x0 x1 = blockPay x0 x1 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz, readCov_last_whole _ hz, View.readCov_unit_zero (S := S1x1) _ hz]
  simp only [View.readAt_eq_ld, h1.read_unread, h2.read_unread, View.ld_unit_zero (S := S16384x30) hz]
  exact blockPay_eq x0 x1 k0_pay1

end Pieces

/-! ## The accumulator point by point, and the kernel's result

  After grid point `n` the accumulator (and the output block, its copy) holds the blocks' sums added up from zero
  in point order.  The output block is written back once, after the last point, and is the whole [1, 1] result
  array; the host then re-lays it as a scalar and divides by the batch size. -/

section Acc

variable {F : FTy → Type} [FloatOps F]
variable (m : (ℓ : Loc nD τ sig) → Buf (Elt F) ℓ) (ρ : Dev nD → PrngReg)

/-- The accumulator after grid point `n`: the block sum of point `n` added to what the point before left, zero
    before the first. -/
def accAt (c : Dev nD) : (n : ℕ) → n < cfg0.N → Vec F S1x1 .f32
  | 0, h => blockPay (iblk m c 0 ⟨0, h⟩) (iblk m c 1 ⟨0, h⟩) k0_pay1
  | n + 1, h => blockPay (iblk m c 0 ⟨n + 1, h⟩) (iblk m c 1 ⟨n + 1, h⟩) (accAt c n (Nat.lt_of_succ_lt h))

/-- What the output block and the accumulator hold after point `n` is that running total, by induction on the
    point. -/
theorem outsAt_eq (c : Dev nD) : ∀ (n : ℕ) (h : n < cfg0.N), outsAt0 m c n h = (accAt m c n h, accAt m c n h)
  | 0, h => by
    rw [outsAt0_A m c ⟨0, h⟩ rfl]
    exact Prod.ext
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩))
      (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩))
  | n + 1, h => by
    have hN : cfg0.N = 49 := N_0
    have hB : ¬(⟨n + 1, h⟩ : Fin cfg0.N).val % 49 = 0 := by dsimp only; omega
    have ih := outsAt_eq c n (Nat.lt_of_succ_lt h)
    rw [outsAt0_B m c ⟨n + 1, h⟩ hB]
    refine Prod.ext ?_ ?_
    · refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hB ((hcond0_0 ⟨n + 1, h⟩).mp hh)) (iblk m c 0 ⟨n + 1, h⟩) (iblk m c 1 ⟨n + 1, h⟩) _).trans ?_
      exact congrArg (blockPay (iblk m c 0 ⟨n + 1, h⟩) (iblk m c 1 ⟨n + 1, h⟩)) (congrArg Prod.snd ih)
    · refine (sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hB ((hcond0_0 ⟨n + 1, h⟩).mp hh)) (iblk m c 0 ⟨n + 1, h⟩) (iblk m c 1 ⟨n + 1, h⟩) _).trans ?_
      exact congrArg (blockPay (iblk m c 0 ⟨n + 1, h⟩) (iblk m c 1 ⟨n + 1, h⟩)) (congrArg Prod.snd ih)

/-- The last grid point. -/
abbrev tLast : Fin cfg0.N := ⟨48, by decide⟩

/-- The kernel's [1, 1] result array: the accumulator after the last point. -/
abbrev result (c : Dev nD) : Buf (Elt F) ((c : Thread nD τ).loc main_v2) := accAt m c 48 (by decide)

/-- The one write-back, after the last point, writes it: block (0, 0) of the [1, 1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 49 := N_0
  have h3 : t.val = 48 := by have := (flush0_2 t).mp hf; have := t.isLt; omega
  obtain rfl : t = tLast := Fin.ext h3
  show (cfg0.win 2).cut (grid0.coords tLast) ((dats m 0 c).after 2 tLast) = _
  rw [after0_2, outsAt_eq]
  have hz' : (fun a => win0_2.index tLast a * main_v2.ty.shape.size a) = fun _ => 0 := funext fun a => by fin_cases a <;> decide
  exact (Memref.read_access_unit_zero (Elt F) main_v2 hz' (fun a => by rw [congrFun hz' a]; simp) (result m c)).symm

/-- So the result array ends holding the accumulator after the last point. -/
theorem final2 (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's tail: the result array re-laid as a scalar, divided by the batch size 16384. -/
theorem tail_eq (c : Dev nD) :
    Pipeline.afterTail₀ cfgs (dats m) 0 (V0 m) [hostOps1] c main_v4
      = Host.divf (shapeCast S_ (result m c) shapeCasts_S1x1_S_) (constant S_ .f32 0x46800000#32) := by
  unfold Pipeline.afterTail₀
  show StableHlo.after hostOps1 _ (Proc.devRef .tc main_v4) = _
  after_results
  rw [Pipeline.withArrays_arr spec0 launch0.win.arr_inj c _ _ 2, final2]
  rfl

/-- The kernel's run, read: its result is the accumulated total divided by the batch size; its arguments are as
    launched. -/
theorem run : θ_run defs (onTc (τ := τ) (main (F := F))) ⟨m, fun _ => 0, ρ⟩ fun r => ∀ c : Dev nD,
      r.2.mem ((c.tc : Thread nD τ).loc main_v4)
        = Host.divf (shapeCast S_ (result m c) shapeCasts_S1x1_S_) (constant S_ .f32 0x46800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Acc

/-! ## The kernel's total at the extended reals

  Entry (r, k) of the block of window 0 or 1 at grid point `t` is entry (16384 t + r, k) of the argument re-laid as
  [802816, 30]: cell 16384 t + r of the flattened batch.  So the accumulator after the last point is zero plus
  the sum over the 49 points of the sums over their 16384 cells, which is the sum over all 802816 cells. -/

section Total

variable (m : (ℓ : Loc nD τ sig) → Buf (Elt Ideal) ℓ)

/-- Cell `q` of an argument: row `q` of the array re-laid as [802816, 30]. -/
def cellRow (x : (⟨S16384x7x7x30, .f32⟩ : BufTy).Contents (Elt Ideal)) (q : Fin 802816) : Fin 30 → Ideal .f32 :=
  fun k => shapeCast S802816x30 x shapeCasts_S16384x7x7x30_S802816x30 (ix2 q k)

/-- The host re-lays each argument as [802816, 30] before the region. -/
theorem V_v0 (c : Dev nD) : (V m c main_v0 : S802816x30.Idx → Ideal .f32)
    = shapeCast S802816x30 (m ((c : Thread nD τ).loc main_arg0)) shapeCasts_S16384x7x7x30_S802816x30 := by
  show StableHlo.after hostOps0 (fun b => m (c, b)) (Proc.devRef .tc main_v0) = _
  after_results; rfl

theorem V_v1 (c : Dev nD) : (V m c main_v1 : S802816x30.Idx → Ideal .f32)
    = shapeCast S802816x30 (m ((c : Thread nD τ).loc main_arg1)) shapeCasts_S16384x7x7x30_S802816x30 := by
  show StableHlo.after hostOps0 (fun b => m (c, b)) (Proc.devRef .tc main_v1) = _
  after_results; rfl

/-- Row `r` of window 0's block at point `t` is cell 16384 t + r of the first argument. -/
theorem iblk0_row (c : Dev nD) (t : Fin cfg0.N) (r : Fin 16384) :
    row (iblk m c 0 t) r = cellRow (m ((c : Thread nD τ).loc main_arg0))
      ⟨r.val + 16384 * t.val, by have := r.isLt; have := t.isLt; have hN : cfg0.N = 49 := N_0; omega⟩ := by
  have hi : win0_0.index t 0 = t.val ∧ win0_0.index t 1 = 0 :=
    (by decide +kernel : ∀ t : Fin grid0.N, win0_0.index t 0 = t.val ∧ win0_0.index t 1 = 0) t
  funext k
  unfold row cellRow iblk
  rw [View.read_apply, ← V_v0 m c]
  show V m c main_v0 _ = V m c main_v0 _
  congr 1
  funext a
  apply Fin.ext
  match a with
  | ⟨0, _⟩ => show win0_0.index t 0 * 16384 + 1 * r.val = r.val + 16384 * t.val; rw [hi.1]; omega
  | ⟨1, _⟩ => show win0_0.index t 1 * 30 + 1 * k.val = k.val; rw [hi.2]; omega

/-- Row `r` of window 1's block at point `t` is cell 16384 t + r of the second argument. -/
theorem iblk1_row (c : Dev nD) (t : Fin cfg0.N) (r : Fin 16384) :
    row (iblk m c 1 t) r = cellRow (m ((c : Thread nD τ).loc main_arg1))
      ⟨r.val + 16384 * t.val, by have := r.isLt; have := t.isLt; have hN : cfg0.N = 49 := N_0; omega⟩ := by
  have hi : win0_1.index t 0 = t.val ∧ win0_1.index t 1 = 0 :=
    (by decide +kernel : ∀ t : Fin grid0.N, win0_1.index t 0 = t.val ∧ win0_1.index t 1 = 0) t
  funext k
  unfold row cellRow iblk
  rw [View.read_apply, ← V_v1 m c]
  show V m c main_v1 _ = V m c main_v1 _
  congr 1
  funext a
  apply Fin.ext
  match a with
  | ⟨0, _⟩ => show win0_1.index t 0 * 16384 + 1 * r.val = r.val + 16384 * t.val; rw [hi.1]; omega
  | ⟨1, _⟩ => show win0_1.index t 1 * 30 + 1 * k.val = k.val; rw [hi.2]; omega

/-- The sum of the losses of the 16384 cells of grid point `t`'s block (zero past the grid). -/
def blockSum (c : Dev nD) (t : ℕ) : Ideal .f32 :=
  if ht : t < cfg0.N then ∑ r : Fin 16384, cell (row (iblk m c 0 ⟨t, ht⟩) r) (row (iblk m c 1 ⟨t, ht⟩) r) else 0

theorem blockSum_of_lt (c : Dev nD) (t : ℕ) (ht : t < cfg0.N) :
    blockSum m c t = ∑ r : Fin 16384, cell (row (iblk m c 0 ⟨t, ht⟩) r) (row (iblk m c 1 ⟨t, ht⟩) r) := dif_pos ht

/-- The accumulator after point `n`: zero plus the block sums of points 0, …, n. -/
theorem accAt_apply (c : Dev nD) (j : S1x1.Idx) : ∀ (n : ℕ) (h : n < cfg0.N),
    accAt m c n h j = Ideal.ofBits .f32 0x00000000#32 + ∑ t ∈ Finset.range (n + 1), blockSum m c t
  | 0, h => by
    show blockPay _ _ k0_pay1 j = _
    rw [blockPay_apply, Finset.sum_range_one, blockSum_of_lt m c 0 h]
    rfl
  | n + 1, h => by
    show blockPay _ _ (accAt m c n _) j = _
    rw [blockPay_apply, accAt_apply c j n _, Finset.sum_range_succ _ (n + 1), add_assoc, blockSum_of_lt m c (n + 1) h]

/-- The kernel's result array: zero plus the sum, over the 49 grid points and the 16384 cells of each point's block,
    of the cells' losses. -/
theorem result_apply (c : Dev nD) (j : S1x1.Idx) :
    result m c j = Ideal.ofBits .f32 0x00000000#32
      + ∑ t : Fin 49, ∑ r : Fin 16384,
          cell (cellRow (m ((c : Thread nD τ).loc main_arg0)) ⟨r.val + 16384 * t.val, by have := r.isLt; have := t.isLt; omega⟩)
            (cellRow (m ((c : Thread nD τ).loc main_arg1)) ⟨r.val + 16384 * t.val, by have := r.isLt; have := t.isLt; omega⟩) := by
  have hN : cfg0.N = 49 := N_0
  show accAt m c 48 _ j = _
  rw [accAt_apply m c j 48 (by decide), ← Fin.sum_univ_eq_sum_range (fun t => blockSum m c t) 49]
  refine congrArg (_ + ·) (Finset.sum_congr rfl fun t _ => ?_)
  rw [blockSum_of_lt m c t.val (by have := t.isLt; omega)]
  refine Finset.sum_congr rfl fun r _ => ?_
  rw [iblk0_row, iblk1_row]

end Total

end Cert.Yolo.Kernel

end
-- ==== Proof.RefCell.lean ====
/-
  The reference program's loss, read one cell at a time.

  The reference works on whole [16384, 49] arrays: every field of the target and of the prediction is a column
  of the [16384, 49, 30] array (a unit slice along the last axis, flattened), the two candidate boxes are
  four-column slices, the choice between them is one bit per cell stretched along the box's four columns, and the
  literals are scalars stretched over all cells.  Read at the cell (n, s), each of these is the evident entry of
  the cell's row — column k of the row, column o + j of a slice starting at o, the cell's own bit, the literal —
  and every arithmetic stage is the same scalar operation on the entries.  So the loss array at (n, s) is the
  per-cell loss of the two rows, the class term being the sum over the twenty class columns, and the reference's
  result is the sum of the per-cell losses over all cells divided by 16384.
-/
import proofs.«165325_j53360673686126_1_alg».proof.Proof.Cell
import proofs.«165325_j53360673686126_1_alg».proof.Proof.RefRead

noncomputable section

namespace Cert.Yolo.Ref

open Cert.ReferenceIdeal Cert.ReferenceIdeal.Gen Cert.ReferenceIdeal.ReadP Idealize.ShloMosaic Idealize.ShloMosaic.ValueIdx

/-! ## Layout operations read at a cell -/

section Layout
variable {α : Type}

/-- A slice of `w` columns from offset `o` stays inside the `d` columns it is cut from. -/
theorem slice_lt {d w o : Nat} (h : (⟨3, ![16384, 49, d]⟩ : Shape).Slices ![0, 0, o] ⟨3, ![16384, 49, w]⟩)
    (j : Fin w) : o + j.val < d := by
  have h2 := h.2 ⟨2, Nat.lt_succ_self 2⟩
  have hj := j.isLt
  change o + w ≤ d at h2
  omega

/-- `w` consecutive columns from offset `o`: the slice holds at (n, s, j) the entry (n, s, o + j). -/
theorem sub3 {d w o : Nat} (Y : (⟨3, ![16384, 49, d]⟩ : Shape).Idx → α)
    (h : (⟨3, ![16384, 49, d]⟩ : Shape).Slices ![0, 0, o] ⟨3, ![16384, 49, w]⟩)
    (n : Fin 16384) (s : Fin 49) (j : Fin w) :
    extractStridedSlice ⟨3, ![16384, 49, w]⟩ ![0, 0, o] Y h (ix3 n s j) = Y (ix3 n s ⟨o + j.val, slice_lt h j⟩) := by
  refine extractStridedSlice_apply _ Y h _ _ (fun a => ?_)
  match a with
  | ⟨0, _⟩ => show n.val = 0 + n.val; omega
  | ⟨1, _⟩ => show s.val = 0 + s.val; omega
  | ⟨2, _⟩ => rfl

/-- A one-column array flattened to [16384, 49] holds at (n, s) its entry (n, s, 0). -/
theorem flat2 (Z : (⟨3, ![16384, 49, 1]⟩ : Shape).Idx → α)
    (h : (⟨3, ![16384, 49, 1]⟩ : Shape).ShapeCasts ⟨2, ![16384, 49]⟩) (n : Fin 16384) (s : Fin 49) :
    shapeCast ⟨2, ![16384, 49]⟩ Z h (ix2 n s) = Z (ix3 n s ⟨0, Nat.one_pos⟩) := by
  refine shapeCast_apply Z h _ _ ?_
  rw [Shape.rowMajor_val_three, Shape.rowMajor_val_two]
  show (n.val * 49 + s.val) * 1 + 0 = n.val * 49 + s.val
  omega

/-- One value per cell given a unit last axis holds at (n, s, j) the cell's value. -/
theorem bcast21 (P : (⟨2, ![16384, 49]⟩ : Shape).Idx → α)
    (h : (⟨2, ![16384, 49]⟩ : Shape).BroadcastsInDim ⟨3, ![16384, 49, 1]⟩ ![0, 1])
    (n : Fin 16384) (s : Fin 49) (j : Fin 1) :
    broadcastInDim ⟨3, ![16384, 49, 1]⟩ ![0, 1] h P (ix3 n s j) = P (ix2 n s) := by
  refine broadcastInDim_apply _ h P _ _ (fun a => ?_)
  match a with
  | ⟨0, _⟩ => rfl
  | ⟨1, _⟩ => rfl

/-- A one-column array stretched to four columns holds at (n, s, j) its entry (n, s, 0). -/
theorem bcast14 (P : (⟨3, ![16384, 49, 1]⟩ : Shape).Idx → α)
    (h : (⟨3, ![16384, 49, 1]⟩ : Shape).BroadcastsInDim ⟨3, ![16384, 49, 4]⟩ ![0, 1, 2])
    (n : Fin 16384) (s : Fin 49) (j : Fin 4) :
    broadcastInDim ⟨3, ![16384, 49, 4]⟩ ![0, 1, 2] h P (ix3 n s j) = P (ix3 n s ⟨0, Nat.one_pos⟩) := by
  refine broadcastInDim_apply _ h P _ _ (fun a => ?_)
  match a with
  | ⟨0, _⟩ => rfl
  | ⟨1, _⟩ => rfl
  | ⟨2, _⟩ => rfl

end Layout

/-- A one-bit word converted to a number as an unsigned bit, or widened to 32 bits and converted as a signed
    word: 0 or 1 either way. -/
theorem uitofp_bit (b : BitVec 1) :
    (FloatOps.uitofp (F := Ideal) .f32 b : Ideal .f32) = FloatOps.sitofp (F := Ideal) .f32 (b.setWidth 32) := by
  rcases BitVec.eq_zero_or_eq_one b with h | h <;> subst h <;> rfl

variable (x0 x1 : (⟨S16384x7x7x30, .f32⟩ : BufTy).Contents (Elt Ideal)) (n : Fin 16384) (s : Fin 49)

/-! ## The loss array at a cell -/

/-- The choice bit stretched along the four columns of a box: at (n, s, j) it is the cell's own bit. -/
theorem choice_read (j : Fin 4) :
    val_main_call4_v0 (F := Ideal) x0 x1 (ix3 n s j) = val_main_v169 (F := Ideal) x0 x1 (ix2 n s) := by
  unfold val_main_call4_v0
  exact (bcast14 _ _ n s j).trans (by unfold val_main_v170; exact bcast21 _ _ n s _)

/-- The loss array at the cell (n, s) is the per-cell loss of the cell's two rows, with the reference's class
    sum at that cell as the class term: every layout stage reads the evident entry of the row, every other
    stage is the scalar operation on what its operands read. -/
theorem ref_cellWith :
    val_main_v255 (F := Ideal) x0 x1 (ix2 n s)
      = Cert.Yolo.cellWith (fun k => val_main_v0 (F := Ideal) x0 (ix3 n s k)) (fun k => val_main_v1 (F := Ideal) x1 (ix3 n s k))
          (val_main_v246 (F := Ideal) x0 x1 (ix2 n s)) := by
  simp only [flat2, sub3, choice_read, uitofp_bit,
    val_main_v2, val_main_v3, val_main_v9, val_main_v10, val_main_v11, val_main_v12, val_main_v13,
    val_main_v14, val_main_v18, val_main_v19, val_main_v20, val_main_v21, val_main_v25, val_main_v26,
    val_main_v27, val_main_v28, val_main_v32, val_main_v33, val_main_v34, val_main_v35, val_main_v39,
    val_main_v40, val_main_v41, val_main_v42, val_main_v46, val_main_v47, val_main_v48, val_main_v49,
    val_main_v53, val_main_v54, val_main_v55, val_main_v56, val_main_v60, val_main_v61, val_main_v62,
    val_main_v63, val_main_v89, val_main_v90, val_main_v91, val_main_v92, val_main_v93, val_main_v94,
    val_main_v98, val_main_v99, val_main_v100, val_main_v101, val_main_v105, val_main_v106, val_main_v107,
    val_main_v108, val_main_v112, val_main_v113, val_main_v114, val_main_v115, val_main_v119, val_main_v120,
    val_main_v121, val_main_v122, val_main_v126, val_main_v127, val_main_v128, val_main_v129, val_main_v133,
    val_main_v134, val_main_v135, val_main_v136, val_main_v140, val_main_v141, val_main_v142, val_main_v143,
    val_main_v171, val_main_v172, val_main_v174, val_main_v175, val_main_v176, val_main_v177, val_main_v179,
    val_main_v180, val_main_v181, val_main_v182, val_main_v184, val_main_v185, val_main_v186, val_main_v187,
    val_main_v190, val_main_v191, val_main_v192, val_main_v193, val_main_v197, val_main_v198, val_main_v200,
    val_main_v201, val_main_v208, val_main_v209, val_main_v211, val_main_v212, val_main_v220, val_main_v221,
    val_main_v227, val_main_v228, val_main_v229, val_main_v230, val_main_v233, val_main_v234, val_main_v235,
    val_main_v236,
    val_main_cst_apply, val_main_v4_apply, val_main_v5_apply, val_main_v6_apply, val_main_cst_0_apply,
    val_main_v7_apply, val_main_v8_apply, val_main_cst_1_apply, val_main_v15_apply, val_main_v16_apply,
    val_main_v17_apply, val_main_cst_2_apply, val_main_v22_apply, val_main_v23_apply, val_main_v24_apply,
    val_main_cst_3_apply, val_main_v29_apply, val_main_v30_apply, val_main_v31_apply, val_main_cst_4_apply,
    val_main_v36_apply, val_main_v37_apply, val_main_v38_apply, val_main_cst_5_apply, val_main_v43_apply,
    val_main_v44_apply, val_main_v45_apply, val_main_cst_6_apply, val_main_v50_apply, val_main_v51_apply,
    val_main_v52_apply, val_main_cst_7_apply, val_main_v57_apply, val_main_v58_apply, val_main_v59_apply,
    val_main_cst_8_apply, val_main_v64_apply, val_main_v65_apply, val_main_v66_apply, val_main_v67_apply,
    val_main_v68_apply, val_main_v69_apply, val_main_cst_9_apply, val_main_call0_v0_apply,
    val_main_call0_v1_apply, val_main_v70_apply, val_main_v71_apply, val_main_v72_apply, val_main_v73_apply,
    val_main_cst_10_apply, val_main_call1_v0_apply, val_main_call1_v1_apply, val_main_v74_apply,
    val_main_v75_apply, val_main_v76_apply, val_main_v77_apply, val_main_v78_apply, val_main_v79_apply,
    val_main_v80_apply, val_main_v81_apply, val_main_v82_apply, val_main_v83_apply, val_main_v84_apply,
    val_main_v85_apply, val_main_cst_11_apply, val_main_v86_apply, val_main_v87_apply, val_main_v88_apply,
    val_main_cst_12_apply, val_main_v95_apply, val_main_v96_apply, val_main_v97_apply, val_main_cst_13_apply,
    val_main_v102_apply, val_main_v103_apply, val_main_v104_apply, val_main_cst_14_apply,
    val_main_v109_apply, val_main_v110_apply, val_main_v111_apply, val_main_cst_15_apply,
    val_main_v116_apply, val_main_v117_apply, val_main_v118_apply, val_main_cst_16_apply,
    val_main_v123_apply, val_main_v124_apply, val_main_v125_apply, val_main_cst_17_apply,
    val_main_v130_apply, val_main_v131_apply, val_main_v132_apply, val_main_cst_18_apply,
    val_main_v137_apply, val_main_v138_apply, val_main_v139_apply, val_main_cst_19_apply,
    val_main_v144_apply, val_main_v145_apply, val_main_v146_apply, val_main_v147_apply, val_main_v148_apply,
    val_main_v149_apply, val_main_cst_20_apply, val_main_call2_v0_apply, val_main_call2_v1_apply,
    val_main_v150_apply, val_main_v151_apply, val_main_v152_apply, val_main_v153_apply,
    val_main_cst_21_apply, val_main_call3_v0_apply, val_main_call3_v1_apply, val_main_v154_apply,
    val_main_v155_apply, val_main_v156_apply, val_main_v157_apply, val_main_v158_apply, val_main_v159_apply,
    val_main_v160_apply, val_main_v161_apply, val_main_v162_apply, val_main_v163_apply, val_main_v164_apply,
    val_main_v165_apply, val_main_cst_22_apply, val_main_v166_apply, val_main_v167_apply,
    val_main_v168_apply, val_main_v169_apply, val_main_v173_apply, val_main_v178_apply, val_main_v183_apply,
    val_main_v188_apply, val_main_v189_apply, val_main_v194_apply, val_main_v195_apply, val_main_v196_apply,
    val_main_v199_apply, val_main_cst_23_apply, val_main_v202_apply, val_main_v203_apply,
    val_main_v204_apply, val_main_v205_apply, val_main_v206_apply, val_main_v207_apply, val_main_v210_apply,
    val_main_cst_24_apply, val_main_v213_apply, val_main_v214_apply, val_main_v215_apply,
    val_main_v216_apply, val_main_v217_apply, val_main_v218_apply, val_main_v219_apply, val_main_v222_apply,
    val_main_v223_apply, val_main_v224_apply, val_main_cst_25_apply, val_main_v225_apply,
    val_main_v226_apply, val_main_v231_apply, val_main_v232_apply, val_main_v237_apply, val_main_v238_apply,
    val_main_v239_apply, val_main_cst_26_apply, val_main_v240_apply, val_main_v241_apply,
    val_main_v247_apply, val_main_cst_28_apply, val_main_v248_apply, val_main_v249_apply,
    val_main_v250_apply, val_main_v251_apply, val_main_v252_apply, val_main_v253_apply, val_main_v254_apply,
    val_main_v255_apply]
  rfl

/-! ## The class term, the cell's loss, and the total -/

/-- The reference's class sum at the cell (n, s): its zero initial value plus the per-cell class sum of the two
    rows — the twenty class columns are columns 10 + k of the row. -/
theorem ref_classSum :
    val_main_v246 (F := Ideal) x0 x1 (ix2 n s)
      = Ideal.ofBits .f32 0x00000000#32
        + Cert.Yolo.classSum (fun k => val_main_v0 (F := Ideal) x0 (ix3 n s k)) (fun k => val_main_v1 (F := Ideal) x1 (ix3 n s k)) := by
  unfold Cert.Yolo.classSum
  rw [val_main_v246_apply, val_main_cst_27_apply]
  refine congrArg (_ + ·) (Finset.sum_congr rfl fun k _ => ?_)
  have hk : idx_main_v246 (ix2 n s) k = ix3 n s k := by
    funext a
    match a with
    | ⟨0, _⟩ => rfl
    | ⟨1, _⟩ => rfl
    | ⟨2, _⟩ => rfl
  rw [hk]
  simp only [val_main_v245_apply, val_main_v244_apply, val_main_v242, val_main_v243, sub3]

/-- The loss array at the cell (n, s) is the per-cell loss of the cell's target and predicted rows. -/
theorem ref_cell :
    val_main_v255 (F := Ideal) x0 x1 (ix2 n s)
      = Cert.Yolo.cell (fun k => val_main_v0 (F := Ideal) x0 (ix3 n s k)) (fun k => val_main_v1 (F := Ideal) x1 (ix3 n s k)) := by
  rw [ref_cellWith, ref_classSum, Ideal.ofBits_zero_f32, zero_add]
  rfl

/-- The reference's result: the sum over all cells of the per-cell loss (from the zero initial value), divided
    by 16384. -/
theorem ref_total :
    val_main_v257 (F := Ideal) x0 x1
      = fun _ => Ideal.div
          ((Ideal.ofBits .f32 0x00000000#32)
            + ∑ j : S16384x49.Idx, Cert.Yolo.cell (fun k => val_main_v0 (F := Ideal) x0 (ix3 (j 0) (j 1) k))
                (fun k => val_main_v1 (F := Ideal) x1 (ix3 (j 0) (j 1) k)))
          (Ideal.ofBits .f32 0x46800000#32) := by
  funext i
  rw [val_main_v257_apply, val_main_v256_apply, val_main_cst_29_apply, val_main_cst_30_apply]
  show Ideal.div (Ideal.ofBits .f32 0x00000000#32 + _) (Ideal.ofBits .f32 0x46800000#32) = _
  refine congrArg (fun t => Ideal.div (Ideal.ofBits .f32 0x00000000#32 + t) (Ideal.ofBits .f32 0x46800000#32))
    (Finset.sum_congr rfl fun j _ => ?_)
  exact (congrArg (val_main_v255 (F := Ideal) x0 x1) (eq_ix2 j)).trans (ref_cell x0 x1 (j 0) (j 1))

end Cert.Yolo.Ref
end
-- ==== Proof.RefWin.lean ====
/-
  The reference program in five consecutive windows, and what is known between them.

  The reference is a straight line of 299 host operations, printed in five parts.  Each part is the list of its
  operations run in order (`partK_eq`), so the whole program is the five lists joined (`ops`, `main_eq`).
  Between two windows only a few values matter: those already computed that a later operation still reads (at most
  fifteen), and the two arguments.  `LiveK W x0 x1` says that the buffer contents `W` hold, at each of those
  values' buffers after window K, the value's stage (Proof/RefRead.lean) of the arguments `x0`, `x1`, and the
  arguments themselves at theirs.  Each window turns the invariant before it into the invariant after it
  (Proof/RefStep0.lean … RefStep4.lean).
-/
import proofs.«165325_j53360673686126_1_alg».proof.Proof.RefRead

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- Contents after a line made of two parts: after the second part, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem scopedRefs_eq : (Finset.univ.filter fun b : Ref sig .tc => b.isScoped) = ∅ := by decide
theorem scopedSems_eq : (Finset.univ.filter fun sm : SemLoc sig => sm.isScoped .tc) = ∅ := by decide

/-- Before the first window: the two argument buffers hold the arguments. -/
structure Start (W : Valuation τ sig (Elt F)) (x0 x1 : (⟨S16384x7x7x30, .f32⟩ : BufTy).Contents (Elt F)) : Prop where
  arg0 : W (Proc.devRef .tc main_arg0) = x0
  arg1 : W (Proc.devRef .tc main_arg1) = x1

set_option maxHeartbeats 40000000 in
set_option maxRecDepth 8192 in
/-- Operations 1 … 60 of the reference (its part 0), in order. -/
abbrev win0 : List (HloOp τ sig (Elt F)) :=
  [ reshape main_arg0 main_v0 rfl shapeCasts_S16384x7x7x30_S16384x49x30,
    reshape main_arg1 main_v1 rfl shapeCasts_S16384x7x7x30_S16384x49x30,
    unary main_v0 main_v2 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v2 main_v3 rfl shapeCasts_S16384x49x1_S16384x49,
    nullary main_cst (constant S_ .f32 0x3F800000#32),
    unary main_cst main_v4 (broadcastInDim S16384x49 ![] bcast_S_S16384x49 : (⟨S_, .f32⟩ : BufTy).Contents (Elt F) → (⟨S16384x49, .f32⟩ : BufTy).Contents (Elt F)),
    binary main_v3 main_v4 main_v5 (cmpf .oeq : (⟨S16384x49, .f32⟩ : BufTy).Contents (Elt F) → (⟨S16384x49, .f32⟩ : BufTy).Contents (Elt F) → (⟨S16384x49, .i1⟩ : BufTy).Contents (Elt F)),
    unary main_v5 main_v6 (uitofp .f32 : (⟨S16384x49, .i1⟩ : BufTy).Contents (Elt F) → (⟨S16384x49, .f32⟩ : BufTy).Contents (Elt F)),
    nullary main_cst_0 (constant S_ .f32 0x3F800000#32),
    unary main_cst_0 main_v7 (broadcastInDim S16384x49 ![] bcast_S_S16384x49 : (⟨S_, .f32⟩ : BufTy).Contents (Elt F) → (⟨S16384x49, .f32⟩ : BufTy).Contents (Elt F)),
    binary main_v7 main_v6 main_v8 (subf : (⟨S16384x49, .f32⟩ : BufTy).Contents (Elt F) → (⟨S16384x49, .f32⟩ : BufTy).Contents (Elt F) → (⟨S16384x49, .f32⟩ : BufTy).Contents (Elt F)),
    unary main_v0 main_v9 ((extractStridedSlice S16384x49x4 ![0, 0, 0] · slices_S16384x49x30_S16384x49x4_0_0_0) : (⟨S16384x49x30, .f32⟩ : BufTy).Contents (Elt F) → (⟨S16384x49x4, .f32⟩ : BufTy).Contents (Elt F)),
    unary main_v1 main_v10 ((extractStridedSlice S16384x49x4 ![0, 0, 0] · slices_S16384x49x30_S16384x49x4_0_0_0) : (⟨S16384x49x30, .f32⟩ : BufTy).Contents (Elt F) → (⟨S16384x49x4, .f32⟩ : BufTy).Contents (Elt F)),
    unary main_v9 main_v11 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v11 main_v12 rfl shapeCasts_S16384x49x1_S16384x49,
    unary main_v9 main_v13 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v13 main_v14 rfl shapeCasts_S16384x49x1_S16384x49,
    nullary main_cst_1 (constant S_ .f32 0x40000000#32),
    unary main_cst_1 main_v15 (broadcastInDim S16384x49 ![] bcast_S_S16384x49 : (⟨S_, .f32⟩ : BufTy).Contents (Elt F) → (⟨S16384x49, .f32⟩ : BufTy).Contents (Elt F)),
    binary main_v14 main_v15 main_v16 (Host.divf : (⟨S16384x49, .f32⟩ : BufTy).Contents (Elt F) → (⟨S16384x49, .f32⟩ : BufTy).Contents (Elt F) → (⟨S16384x49, .f32⟩ : BufTy).Contents (Elt F)),
    binary main_v12 main_v16 main_v17 (subf : (⟨S16384x49, .f32⟩ : BufTy).Contents (Elt F) → (⟨S16384x49, .f32⟩ : BufTy).Contents (Elt F) → (⟨S16384x49, .f32⟩ : BufTy).Contents (Elt F)),
    unary main_v9 main_v18 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v18 main_v19 rfl shapeCasts_S16384x49x1_S16384x49,
    unary main_v9 main_v20 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v20 main_v21 rfl shapeCasts_S16384x49x1_S16384x49,
    nullary main_cst_2 (constant S_ .f32 0x40000000#32),
    unary main_cst_2 main_v22 (broadcastInDim S16384x49 ![] bcast_S_S16384x49 : (⟨S_, .f32⟩ : BufTy).Contents (Elt F) → (⟨S16384x49, .f32⟩ : BufTy).Contents (Elt F)),
    binary main_v21 main_v22 main_v23 (Host.divf : (⟨S16384x49, .f32⟩ : BufTy).Contents (Elt F) → (⟨S16384x49, .f32⟩ : BufTy).Contents (Elt F) → (⟨S16384x49, .f32⟩ : BufTy).Contents (Elt F)),
    binary main_v19 main_v23 main_v24 (subf : (⟨S16384x49, .f32⟩ : BufTy).Contents (Elt F) → (⟨S16384x49, .f32⟩ : BufTy).Contents (Elt F) → (⟨S16384x49, .f32⟩ : BufTy).Contents (Elt F)),
    unary main_v9 main_v25 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v25 main_v26 rfl shapeCasts_S16384x49x1_S16384x49,
    unary main_v9 main_v27 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v27 main_v28 rfl shapeCasts_S16384x49x1_S16384x49,
    nullary main_cst_3 (constant S_ .f32 0x40000000#32),
    unary main_cst_3 main_v29 (broadcastInDim S16384x49 ![] bcast_S_S16384x49 : (⟨S_, .f32⟩ : BufTy).Contents (Elt F) → (⟨S16384x49, .f32⟩ : BufTy).Contents (Elt F)),
    binary main_v28 main_v29 main_v30 (Host.divf : (⟨S16384x49, .f32⟩ : BufTy).Contents (Elt F) → (⟨S16384x49, .f32⟩ : BufTy).Contents (Elt F) → (⟨S16384x49, .f32⟩ : BufTy).Contents (Elt F)),
    binary main_v26 main_v30 main_v31 (addf : (⟨S16384x49, .f32⟩ : BufTy).Contents (Elt F) → (⟨S16384x49, .f32⟩ : BufTy).Contents (Elt F) → (⟨S16384x49, .f32⟩ : BufTy).Contents (Elt F)),
    unary main_v9 main_v32 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v32 main_v33 rfl shapeCasts_S16384x49x1_S16384x49,
    unary main_v9 main_v34 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v34 main_v35 rfl shapeCasts_S16384x49x1_S16384x49,
    nullary main_cst_4 (constant S_ .f32 0x40000000#32),
    unary main_cst_4 main_v36 (broadcastInDim S16384x49 ![] bcast_S_S16384x49 : (⟨S_, .f32⟩ : BufTy).Contents (Elt F) → (⟨S16384x49, .f32⟩ : BufTy).Contents (Elt F)),
    binary main_v35 main_v36 main_v37 (Host.divf : (⟨S16384x49, .f32⟩ : BufTy).Contents (Elt F) → (⟨S16384x49, .f32⟩ : BufTy).Contents (Elt F) → (⟨S16384x49, .f32⟩ : BufTy).Contents (Elt F)),
    binary main_v33 main_v37 main_v38 (addf : (⟨S16384x49, .f32⟩ : BufTy).Contents (Elt F) → (⟨S16384x49, .f32⟩ : BufTy).Contents (Elt F) → (⟨S16384x49, .f32⟩ : BufTy).Contents (Elt F)),
    unary main_v10 main_v39 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v39 main_v40 rfl shapeCasts_S16384x49x1_S16384x49,
    unary main_v10 main_v41 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v41 main_v42 rfl shapeCasts_S16384x49x1_S16384x49,
    nullary main_cst_5 (constant S_ .f32 0x40000000#32),
    unary main_cst_5 main_v43 (broadcastInDim S16384x49 ![] bcast_S_S16384x49 : (⟨S_, .f32⟩ : BufTy).Contents (Elt F) → (⟨S16384x49, .f32⟩ : BufTy).Contents (Elt F)),
    binary main_v42 main_v43 main_v44 (Host.divf : (⟨S16384x49, .f32⟩ : BufTy).Contents (Elt F) → (⟨S16384x49, .f32⟩ : BufTy).Contents (Elt F) → (⟨S16384x49, .f32⟩ : BufTy).Contents (Elt F)),
    binary main_v40 main_v44 main_v45 (subf : (⟨S16384x49, .f32⟩ : BufTy).Contents (Elt F) → (⟨S16384x49, .f32⟩ : BufTy).Contents (Elt F) → (⟨S16384x49, .f32⟩ : BufTy).Contents (Elt F)),
    unary main_v10 main_v46 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v46 main_v47 rfl shapeCasts_S16384x49x1_S16384x49,
    unary main_v10 main_v48 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v48 main_v49 rfl shapeCasts_S16384x49x1_S16384x49,
    nullary main_cst_6 (constant S_ .f32 0x40000000#32),
    unary main_cst_6 main_v50 (broadcastInDim S16384x49 ![] bcast_S_S16384x49 : (⟨S_, .f32⟩ : BufTy).Contents (Elt F) → (⟨S16384x49, .f32⟩ : BufTy).Contents (Elt F)),
    binary main_v49 main_v50 main_v51 (Host.divf : (⟨S16384x49, .f32⟩ : BufTy).Contents (Elt F) → (⟨S16384x49, .f32⟩ : BufTy).Contents (Elt F) → (⟨S16384x49, .f32⟩ : BufTy).Contents (Elt F)) ]

set_option maxHeartbeats 40000000 in
set_option maxRecDepth 8192 in
/-- Part 0 of the program is that list run in order. -/
theorem part0_eq (d : Dev nD) : main_part0 (F := F) d = seq win0 := rfl

set_option maxRecDepth 8192 in
/-- Each operation of the window touches TensorCore buffers only. -/
theorem win0_sub : (win0 : List (HloOp τ sig (Elt F))).Forall fun op => op.bufs ⊆ tcRefs τ sig :=
  ⟨reshape_bufs_sub .., reshape_bufs_sub .., unary_bufs_sub .., reshape_bufs_sub .., nullary_bufs_sub .., unary_bufs_sub .., binary_bufs_sub .., unary_bufs_sub .., nullary_bufs_sub .., unary_bufs_sub .., binary_bufs_sub .., unary_bufs_sub .., unary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub ..⟩

/-- After window 0: the values a later operation still reads, and the arguments. -/
structure Live0 (W : Valuation τ sig (Elt F)) (x0 x1 : (⟨S16384x7x7x30, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v6 : W (Proc.devRef .tc main_v6) = val_main_v6 (F := F) x0
  v8 : W (Proc.devRef .tc main_v8) = val_main_v8 (F := F) x0
  v10 : W (Proc.devRef .tc main_v10) = val_main_v10 (F := F) x1
  v17 : W (Proc.devRef .tc main_v17) = val_main_v17 (F := F) x0
  v24 : W (Proc.devRef .tc main_v24) = val_main_v24 (F := F) x0
  v31 : W (Proc.devRef .tc main_v31) = val_main_v31 (F := F) x0
  v38 : W (Proc.devRef .tc main_v38) = val_main_v38 (F := F) x0
  v45 : W (Proc.devRef .tc main_v45) = val_main_v45 (F := F) x1
  v47 : W (Proc.devRef .tc main_v47) = val_main_v47 (F := F) x1
  v51 : W (Proc.devRef .tc main_v51) = val_main_v51 (F := F) x1

set_option maxHeartbeats 40000000 in
set_option maxRecDepth 8192 in
/-- Operations 61 … 124 of the reference (its part 1), in order. -/
abbrev win1 : List (HloOp τ sig (Elt F)) :=
  [ binary main_v47 main_v51 main_v52 (subf : (⟨S16384x49, .f32⟩ : BufTy).Contents (Elt F) → (⟨S16384x49, .f32⟩ : BufTy).Contents (Elt F) → (⟨S16384x49, .f32⟩ : BufTy).Contents (Elt F)),
    unary main_v10 main_v53 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v53 main_v54 rfl shapeCasts_S16384x49x1_S16384x49,
    unary main_v10 main_v55 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v55 main_v56 rfl shapeCasts_S16384x49x1_S16384x49,
    nullary main_cst_7 (constant S_ .f32 0x40000000#32),
    unary main_cst_7 main_v57 (broadcastInDim S16384x49 ![] bcast_S_S16384x49 : (⟨S_, .f32⟩ : BufTy).Contents (Elt F) → (⟨S16384x49, .f32⟩ : BufTy).Contents (Elt F)),
    binary main_v56 main_v57 main_v58 (Host.divf : (⟨S16384x49, .f32⟩ : BufTy).Contents (Elt F) → (⟨S16384x49, .f32⟩ : BufTy).Contents (Elt F) → (⟨S16384x49, .f32⟩ : BufTy).Contents (Elt F)),
    binary main_v54 main_v58 main_v59 (addf : (⟨S16384x49, .f32⟩ : BufTy).Contents (Elt F) → (⟨S16384x49, .f32⟩ : BufTy).Contents (Elt F) → (⟨S16384x49, .f32⟩ : BufTy).Contents (Elt F)),
    unary main_v10 main_v60 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v60 main_v61 rfl shapeCasts_S16384x49x1_S16384x49,
    unary main_v10 main_v62 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v62 main_v63 rfl shapeCasts_S16384x49x1_S16384x49,
    nullary main_cst_8 (constant S_ .f32 0x40000000#32),
    unary main_cst_8 main_v64 (broadcastInDim S16384x49 ![] bcast_S_S16384x49 : (⟨S_, .f32⟩ : BufTy).Contents (Elt F) → (⟨S16384x49, .f32⟩ : BufTy).Contents (Elt F)),
    binary main_v63 main_v64 main_v65 (Host.divf : (⟨S16384x49, .f32⟩ : BufTy).Contents (Elt F) → (⟨S16384x49, .f32⟩ : BufTy).Contents (Elt F) → (⟨S16384x49, .f32⟩ : BufTy).Contents (Elt F)),
    binary main_v61 main_v65 main_v66 (addf : (⟨S16384x49, .f32⟩ : BufTy).Contents (Elt F) → (⟨S16384x49, .f32⟩ : BufTy).Contents (Elt F) → (⟨S16384x49, .f32⟩ : BufTy).Contents (Elt F)),
    binary main_v31 main_v59 main_v67 (minimumf : (⟨S16384x49, .f32⟩ : BufTy).Contents (Elt F) → (⟨S16384x49, .f32⟩ : BufTy).Contents (Elt F) → (⟨S16384x49, .f32⟩ : BufTy).Contents (Elt F)),
    binary main_v17 main_v45 main_v68 (maximumf : (⟨S16384x49, .f32⟩ : BufTy).Contents (Elt F) → (⟨S16384x49, .f32⟩ : BufTy).Contents (Elt F) → (⟨S16384x49, .f32⟩ : BufTy).Contents (Elt F)),
    binary main_v67 main_v68 main_v69 (subf : (⟨S16384x49, .f32⟩ : BufTy).Contents (Elt F) → (⟨S16384x49, .f32⟩ : BufTy).Contents (Elt F) → (⟨S16384x49, .f32⟩ : BufTy).Contents (Elt F)),
    nullary main_cst_9 (constant S_ .f32 0x00000000#32),
    TRef.unary (TRef.of (T := ⟨S_, .f32⟩) main_cst_9) (TRef.of (T := ⟨S_, .f32⟩) main_call0_v0) id,
    TRef.unary (TRef.of (T := ⟨S_, .f32⟩) main_call0_v0) (TRef.of (T := ⟨S16384x49, .f32⟩) main_call0_v1) (broadcastInDim S16384x49 ![] bcast_S_S16384x49),
    TRef.binary (TRef.of (T := ⟨S16384x49, .f32⟩) main_call0_v1) (TRef.of (T := ⟨S16384x49, .f32⟩) main_v69) (TRef.of (T := ⟨S16384x49, .f32⟩) main_v70) maximumf,
    binary main_v38 main_v66 main_v71 (minimumf : (⟨S16384x49, .f32⟩ : BufTy).Contents (Elt F) → (⟨S16384x49, .f32⟩ : BufTy).Contents (Elt F) → (⟨S16384x49, .f32⟩ : BufTy).Contents (Elt F)),
    binary main_v24 main_v52 main_v72 (maximumf : (⟨S16384x49, .f32⟩ : BufTy).Contents (Elt F) → (⟨S16384x49, .f32⟩ : BufTy).Contents (Elt F) → (⟨S16384x49, .f32⟩ : BufTy).Contents (Elt F)),
    binary main_v71 main_v72 main_v73 (subf : (⟨S16384x49, .f32⟩ : BufTy).Contents (Elt F) → (⟨S16384x49, .f32⟩ : BufTy).Contents (Elt F) → (⟨S16384x49, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S16384x49, .f32⟩) main_call1_v1) (broadcastInDim S16384x49 ![] bcast_S_S16384x49),
    TRef.binary (TRef.of (T := ⟨S16384x49, .f32⟩) main_call1_v1) (TRef.of (T := ⟨S16384x49, .f32⟩) main_v73) (TRef.of (T := ⟨S16384x49, .f32⟩) main_v74) maximumf,
    binary main_v70 main_v74 main_v75 (mulf : (⟨S16384x49, .f32⟩ : BufTy).Contents (Elt F) → (⟨S16384x49, .f32⟩ : BufTy).Contents (Elt F) → (⟨S16384x49, .f32⟩ : BufTy).Contents (Elt F)),
    binary main_v31 main_v17 main_v76 (subf : (⟨S16384x49, .f32⟩ : BufTy).Contents (Elt F) → (⟨S16384x49, .f32⟩ : BufTy).Contents (Elt F) → (⟨S16384x49, .f32⟩ : BufTy).Contents (Elt F)),
    binary main_v38 main_v24 main_v77 (subf : (⟨S16384x49, .f32⟩ : BufTy).Contents (Elt F) → (⟨S16384x49, .f32⟩ : BufTy).Contents (Elt F) → (⟨S16384x49, .f32⟩ : BufTy).Contents (Elt F)),
    binary main_v76 main_v77 main_v78 (mulf : (⟨S16384x49, .f32⟩ : BufTy).Contents (Elt F) → (⟨S16384x49, .f32⟩ : BufTy).Contents (Elt F) → (⟨S16384x49, .f32⟩ : BufTy).Contents (Elt F)),
    unary main_v78 main_v79 (Host.absf : (⟨S16384x49, .f32⟩ : BufTy).Contents (Elt F) → (⟨S16384x49, .f32⟩ : BufTy).Contents (Elt F)),
    binary main_v59 main_v45 main_v80 (subf : (⟨S16384x49, .f32⟩ : BufTy).Contents (Elt F) → (⟨S16384x49, .f32⟩ : BufTy).Contents (Elt F) → (⟨S16384x49, .f32⟩ : BufTy).Contents (Elt F)),
    binary main_v66 main_v52 main_v81 (subf : (⟨S16384x49, .f32⟩ : BufTy).Contents (Elt F) → (⟨S16384x49, .f32⟩ : BufTy).Contents (Elt F) → (⟨S16384x49, .f32⟩ : BufTy).Contents (Elt F)),
    binary main_v80 main_v81 main_v82 (mulf : (⟨S16384x49, .f32⟩ : BufTy).Contents (Elt F) → (⟨S16384x49, .f32⟩ : BufTy).Contents (Elt F) → (⟨S16384x49, .f32⟩ : BufTy).Contents (Elt F)),
    unary main_v82 main_v83 (Host.absf : (⟨S16384x49, .f32⟩ : BufTy).Contents (Elt F) → (⟨S16384x49, .f32⟩ : BufTy).Contents (Elt F)),
    binary main_v79 main_v83 main_v84 (addf : (⟨S16384x49, .f32⟩ : BufTy).Contents (Elt F) → (⟨S16384x49, .f32⟩ : BufTy).Contents (Elt F) → (⟨S16384x49, .f32⟩ : BufTy).Contents (Elt F)),
    binary main_v84 main_v75 main_v85 (subf : (⟨S16384x49, .f32⟩ : BufTy).Contents (Elt F) → (⟨S16384x49, .f32⟩ : BufTy).Contents (Elt F) → (⟨S16384x49, .f32⟩ : BufTy).Contents (Elt F)),
    nullary main_cst_11 (constant S_ .f32 0x358637BD#32),
    unary main_cst_11 main_v86 (broadcastInDim S16384x49 ![] bcast_S_S16384x49 : (⟨S_, .f32⟩ : BufTy).Contents (Elt F) → (⟨S16384x49, .f32⟩ : BufTy).Contents (Elt F)),
    binary main_v85 main_v86 main_v87 (addf : (⟨S16384x49, .f32⟩ : BufTy).Contents (Elt F) → (⟨S16384x49, .f32⟩ : BufTy).Contents (Elt F) → (⟨S16384x49, .f32⟩ : BufTy).Contents (Elt F)),
    binary main_v75 main_v87 main_v88 (Host.divf : (⟨S16384x49, .f32⟩ : BufTy).Contents (Elt F) → (⟨S16384x49, .f32⟩ : BufTy).Contents (Elt F) → (⟨S16384x49, .f32⟩ : BufTy).Contents (Elt F)),
    unary main_v0 main_v89 ((extractStridedSlice S16384x49x4 ![0, 0, 0] · slices_S16384x49x30_S16384x49x4_0_0_0) : (⟨S16384x49x30, .f32⟩ : BufTy).Contents (Elt F) → (⟨S16384x49x4, .f32⟩ : BufTy).Contents (Elt F)),
    unary main_v1 main_v90 ((extractStridedSlice S16384x49x4 ![0, 0, 5] · slices_S16384x49x30_S16384x49x4_0_0_5) : (⟨S16384x49x30, .f32⟩ : BufTy).Contents (Elt F) → (⟨S16384x49x4, .f32⟩ : BufTy).Contents (Elt F)),
    unary main_v89 main_v91 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v91 main_v92 rfl shapeCasts_S16384x49x1_S16384x49,
    unary main_v89 main_v93 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v93 main_v94 rfl shapeCasts_S16384x49x1_S16384x49,
    nullary main_cst_12 (constant S_ .f32 0x40000000#32),
    unary main_cst_12 main_v95 (broadcastInDim S16384x49 ![] bcast_S_S16384x49 : (⟨S_, .f32⟩ : BufTy).Contents (Elt F) → (⟨S16384x49, .f32⟩ : BufTy).Contents (Elt F)),
    binary main_v94 main_v95 main_v96 (Host.divf : (⟨S16384x49, .f32⟩ : BufTy).Contents (Elt F) → (⟨S16384x49, .f32⟩ : BufTy).Contents (Elt F) → (⟨S16384x49, .f32⟩ : BufTy).Contents (Elt F)),
    binary main_v92 main_v96 main_v97 (subf : (⟨S16384x49, .f32⟩ : BufTy).Contents (Elt F) → (⟨S16384x49, .f32⟩ : BufTy).Contents (Elt F) → (⟨S16384x49, .f32⟩ : BufTy).Contents (Elt F)),
    unary main_v89 main_v98 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v98 main_v99 rfl shapeCasts_S16384x49x1_S16384x49,
    unary main_v89 main_v100 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v100 main_v101 rfl shapeCasts_S16384x49x1_S16384x49,
    nullary main_cst_13 (constant S_ .f32 0x40000000#32),
    unary main_cst_13 main_v102 (broadcastInDim S16384x49 ![] bcast_S_S16384x49 : (⟨S_, .f32⟩ : BufTy).Contents (Elt F) → (⟨S16384x49, .f32⟩ : BufTy).Contents (Elt F)),
    binary main_v101 main_v102 main_v103 (Host.divf : (⟨S16384x49, .f32⟩ : BufTy).Contents (Elt F) → (⟨S16384x49, .f32⟩ : BufTy).Contents (Elt F) → (⟨S16384x49, .f32⟩ : BufTy).Contents (Elt F)),
    binary main_v99 main_v103 main_v104 (subf : (⟨S16384x49, .f32⟩ : BufTy).Contents (Elt F) → (⟨S16384x49, .f32⟩ : BufTy).Contents (Elt F) → (⟨S16384x49, .f32⟩ : BufTy).Contents (Elt F)) ]

set_option maxHeartbeats 40000000 in
set_option maxRecDepth 8192 in
/-- Part 1 of the program is that list run in order. -/
theorem part1_eq (d : Dev nD) : main_part1 (F := F) d = seq win1 := rfl

set_option maxRecDepth 8192 in
/-- Each operation of the window touches TensorCore buffers only. -/
theorem win1_sub : (win1 : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub .., unary_bufs_sub .., unary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub ..⟩

/-- After window 1: the values a later operation still reads, and the arguments. -/
structure Live1 (W : Valuation τ sig (Elt F)) (x0 x1 : (⟨S16384x7x7x30, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v6 : W (Proc.devRef .tc main_v6) = val_main_v6 (F := F) x0
  v8 : W (Proc.devRef .tc main_v8) = val_main_v8 (F := F) x0
  v88 : W (Proc.devRef .tc main_v88) = val_main_v88 (F := F) x0 x1
  v89 : W (Proc.devRef .tc main_v89) = val_main_v89 (F := F) x0
  v90 : W (Proc.devRef .tc main_v90) = val_main_v90 (F := F) x1
  v97 : W (Proc.devRef .tc main_v97) = val_main_v97 (F := F) x0
  v104 : W (Proc.devRef .tc main_v104) = val_main_v104 (F := F) x0

set_option maxHeartbeats 40000000 in
set_option maxRecDepth 8192 in
/-- Operations 125 … 188 of the reference (its part 2), in order. -/
abbrev win2 : List (HloOp τ sig (Elt F)) :=
  [ unary main_v89 main_v105 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v105 main_v106 rfl shapeCasts_S16384x49x1_S16384x49,
    unary main_v89 main_v107 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v107 main_v108 rfl shapeCasts_S16384x49x1_S16384x49,
    nullary main_cst_14 (constant S_ .f32 0x40000000#32),
    unary main_cst_14 main_v109 (broadcastInDim S16384x49 ![] bcast_S_S16384x49 : (⟨S_, .f32⟩ : BufTy).Contents (Elt F) → (⟨S16384x49, .f32⟩ : BufTy).Contents (Elt F)),
    binary main_v108 main_v109 main_v110 (Host.divf : (⟨S16384x49, .f32⟩ : BufTy).Contents (Elt F) → (⟨S16384x49, .f32⟩ : BufTy).Contents (Elt F) → (⟨S16384x49, .f32⟩ : BufTy).Contents (Elt F)),
    binary main_v106 main_v110 main_v111 (addf : (⟨S16384x49, .f32⟩ : BufTy).Contents (Elt F) → (⟨S16384x49, .f32⟩ : BufTy).Contents (Elt F) → (⟨S16384x49, .f32⟩ : BufTy).Contents (Elt F)),
    unary main_v89 main_v112 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v112 main_v113 rfl shapeCasts_S16384x49x1_S16384x49,
    unary main_v89 main_v114 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v114 main_v115 rfl shapeCasts_S16384x49x1_S16384x49,
    nullary main_cst_15 (constant S_ .f32 0x40000000#32),
    unary main_cst_15 main_v116 (broadcastInDim S16384x49 ![] bcast_S_S16384x49 : (⟨S_, .f32⟩ : BufTy).Contents (Elt F) → (⟨S16384x49, .f32⟩ : BufTy).Contents (Elt F)),
    binary main_v115 main_v116 main_v117 (Host.divf : (⟨S16384x49, .f32⟩ : BufTy).Contents (Elt F) → (⟨S16384x49, .f32⟩ : BufTy).Contents (Elt F) → (⟨S16384x49, .f32⟩ : BufTy).Contents (Elt F)),
    binary main_v113 main_v117 main_v118 (addf : (⟨S16384x49, .f32⟩ : BufTy).Contents (Elt F) → (⟨S16384x49, .f32⟩ : BufTy).Contents (Elt F) → (⟨S16384x49, .f32⟩ : BufTy).Contents (Elt F)),
    unary main_v90 main_v119 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v119 main_v120 rfl shapeCasts_S16384x49x1_S16384x49,
    unary main_v90 main_v121 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v121 main_v122 rfl shapeCasts_S16384x49x1_S16384x49,
    nullary main_cst_16 (constant S_ .f32 0x40000000#32),
    unary main_cst_16 main_v123 (broadcastInDim S16384x49 ![] bcast_S_S16384x49 : (⟨S_, .f32⟩ : BufTy).Contents (Elt F) → (⟨S16384x49, .f32⟩ : BufTy).Contents (Elt F)),
    binary main_v122 main_v123 main_v124 (Host.divf : (⟨S16384x49, .f32⟩ : BufTy).Contents (Elt F) → (⟨S16384x49, .f32⟩ : BufTy).Contents (Elt F) → (⟨S16384x49, .f32⟩ : BufTy).Contents (Elt F)),
    binary main_v120 main_v124 main_v125 (subf : (⟨S16384x49, .f32⟩ : BufTy).Contents (Elt F) → (⟨S16384x49, .f32⟩ : BufTy).Contents (Elt F) → (⟨S16384x49, .f32⟩ : BufTy).Contents (Elt F)),
    unary main_v90 main_v126 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v126 main_v127 rfl shapeCasts_S16384x49x1_S16384x49,
    unary main_v90 main_v128 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v128 main_v129 rfl shapeCasts_S16384x49x1_S16384x49,
    nullary main_cst_17 (constant S_ .f32 0x40000000#32),
    unary main_cst_17 main_v130 (broadcastInDim S16384x49 ![] bcast_S_S16384x49 : (⟨S_, .f32⟩ : BufTy).Contents (Elt F) → (⟨S16384x49, .f32⟩ : BufTy).Contents (Elt F)),
    binary main_v129 main_v130 main_v131 (Host.divf : (⟨S16384x49, .f32⟩ : BufTy).Contents (Elt F) → (⟨S16384x49, .f32⟩ : BufTy).Contents (Elt F) → (⟨S16384x49, .f32⟩ : BufTy).Contents (Elt F)),
    binary main_v127 main_v131 main_v132 (subf : (⟨S16384x49, .f32⟩ : BufTy).Contents (Elt F) → (⟨S16384x49, .f32⟩ : BufTy).Contents (Elt F) → (⟨S16384x49, .f32⟩ : BufTy).Contents (Elt F)),
    unary main_v90 main_v133 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v133 main_v134 rfl shapeCasts_S16384x49x1_S16384x49,
    unary main_v90 main_v135 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v135 main_v136 rfl shapeCasts_S16384x49x1_S16384x49,
    nullary main_cst_18 (constant S_ .f32 0x40000000#32),
    unary main_cst_18 main_v137 (broadcastInDim S16384x49 ![] bcast_S_S16384x49 : (⟨S_, .f32⟩ : BufTy).Contents (Elt F) → (⟨S16384x49, .f32⟩ : BufTy).Contents (Elt F)),
    binary main_v136 main_v137 main_v138 (Host.divf : (⟨S16384x49, .f32⟩ : BufTy).Contents (Elt F) → (⟨S16384x49, .f32⟩ : BufTy).Contents (Elt F) → (⟨S16384x49, .f32⟩ : BufTy).Contents (Elt F)),
    binary main_v134 main_v138 main_v139 (addf : (⟨S16384x49, .f32⟩ : BufTy).Contents (Elt F) → (⟨S16384x49, .f32⟩ : BufTy).Contents (Elt F) → (⟨S16384x49, .f32⟩ : BufTy).Contents (Elt F)),
    unary main_v90 main_v140 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v140 main_v141 rfl shapeCasts_S16384x49x1_S16384x49,
    unary main_v90 main_v142 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v142 main_v143 rfl shapeCasts_S16384x49x1_S16384x49,
    nullary main_cst_19 (constant S_ .f32 0x40000000#32),
    unary main_cst_19 main_v144 (broadcastInDim S16384x49 ![] bcast_S_S16384x49 : (⟨S_, .f32⟩ : BufTy).Contents (Elt F) → (⟨S16384x49, .f32⟩ : BufTy).Contents (Elt F)),
    binary main_v143 main_v144 main_v145 (Host.divf : (⟨S16384x49, .f32⟩ : BufTy).Contents (Elt F) → (⟨S16384x49, .f32⟩ : BufTy).Contents (Elt F) → (⟨S16384x49, .f32⟩ : BufTy).Contents (Elt F)),
    binary main_v141 main_v145 main_v146 (addf : (⟨S16384x49, .f32⟩ : BufTy).Contents (Elt F) → (⟨S16384x49, .f32⟩ : BufTy).Contents (Elt F) → (⟨S16384x49, .f32⟩ : BufTy).Contents (Elt F)),
    binary main_v111 main_v139 main_v147 (minimumf : (⟨S16384x49, .f32⟩ : BufTy).Contents (Elt F) → (⟨S16384x49, .f32⟩ : BufTy).Contents (Elt F) → (⟨S16384x49, .f32⟩ : BufTy).Contents (Elt F)),
    binary main_v97 main_v125 main_v148 (maximumf : (⟨S16384x49, .f32⟩ : BufTy).Contents (Elt F) → (⟨S16384x49, .f32⟩ : BufTy).Contents (Elt F) → (⟨S16384x49, .f32⟩ : BufTy).Contents (Elt F)),
    binary main_v147 main_v148 main_v149 (subf : (⟨S16384x49, .f32⟩ : BufTy).Contents (Elt F) → (⟨S16384x49, .f32⟩ : BufTy).Contents (Elt F) → (⟨S16384x49, .f32⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S16384x49, .f32⟩) main_call2_v1) (broadcastInDim S16384x49 ![] bcast_S_S16384x49),
    TRef.binary (TRef.of (T := ⟨S16384x49, .f32⟩) main_call2_v1) (TRef.of (T := ⟨S16384x49, .f32⟩) main_v149) (TRef.of (T := ⟨S16384x49, .f32⟩) main_v150) maximumf,
    binary main_v118 main_v146 main_v151 (minimumf : (⟨S16384x49, .f32⟩ : BufTy).Contents (Elt F) → (⟨S16384x49, .f32⟩ : BufTy).Contents (Elt F) → (⟨S16384x49, .f32⟩ : BufTy).Contents (Elt F)),
    binary main_v104 main_v132 main_v152 (maximumf : (⟨S16384x49, .f32⟩ : BufTy).Contents (Elt F) → (⟨S16384x49, .f32⟩ : BufTy).Contents (Elt F) → (⟨S16384x49, .f32⟩ : BufTy).Contents (Elt F)),
    binary main_v151 main_v152 main_v153 (subf : (⟨S16384x49, .f32⟩ : BufTy).Contents (Elt F) → (⟨S16384x49, .f32⟩ : BufTy).Contents (Elt F) → (⟨S16384x49, .f32⟩ : BufTy).Contents (Elt F)),
    nullary main_cst_21 (constant S_ .f32 0x00000000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S16384x49, .f32⟩) main_call3_v1) (broadcastInDim S16384x49 ![] bcast_S_S16384x49),
    TRef.binary (TRef.of (T := ⟨S16384x49, .f32⟩) main_call3_v1) (TRef.of (T := ⟨S16384x49, .f32⟩) main_v153) (TRef.of (T := ⟨S16384x49, .f32⟩) main_v154) maximumf,
    binary main_v150 main_v154 main_v155 (mulf : (⟨S16384x49, .f32⟩ : BufTy).Contents (Elt F) → (⟨S16384x49, .f32⟩ : BufTy).Contents (Elt F) → (⟨S16384x49, .f32⟩ : BufTy).Contents (Elt F)),
    binary main_v111 main_v97 main_v156 (subf : (⟨S16384x49, .f32⟩ : BufTy).Contents (Elt F) → (⟨S16384x49, .f32⟩ : BufTy).Contents (Elt F) → (⟨S16384x49, .f32⟩ : BufTy).Contents (Elt F)) ]

set_option maxHeartbeats 40000000 in
set_option maxRecDepth 8192 in
/-- Part 2 of the program is that list run in order. -/
theorem part2_eq (d : Dev nD) : main_part2 (F := F) d = seq win2 := rfl

set_option maxRecDepth 8192 in
/-- Each operation of the window touches TensorCore buffers only. -/
theorem win2_sub : (win2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub ..⟩

/-- After window 2: the values a later operation still reads, and the arguments. -/
structure Live2 (W : Valuation τ sig (Elt F)) (x0 x1 : (⟨S16384x7x7x30, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v6 : W (Proc.devRef .tc main_v6) = val_main_v6 (F := F) x0
  v8 : W (Proc.devRef .tc main_v8) = val_main_v8 (F := F) x0
  v88 : W (Proc.devRef .tc main_v88) = val_main_v88 (F := F) x0 x1
  v104 : W (Proc.devRef .tc main_v104) = val_main_v104 (F := F) x0
  v118 : W (Proc.devRef .tc main_v118) = val_main_v118 (F := F) x0
  v125 : W (Proc.devRef .tc main_v125) = val_main_v125 (F := F) x1
  v132 : W (Proc.devRef .tc main_v132) = val_main_v132 (F := F) x1
  v139 : W (Proc.devRef .tc main_v139) = val_main_v139 (F := F) x1
  v146 : W (Proc.devRef .tc main_v146) = val_main_v146 (F := F) x1
  v155 : W (Proc.devRef .tc main_v155) = val_main_v155 (F := F) x0 x1
  v156 : W (Proc.devRef .tc main_v156) = val_main_v156 (F := F) x0

set_option maxHeartbeats 40000000 in
set_option maxRecDepth 8192 in
/-- Operations 189 … 249 of the reference (its part 3), in order. -/
abbrev win3 : List (HloOp τ sig (Elt F)) :=
  [ binary main_v118 main_v104 main_v157 (subf : (⟨S16384x49, .f32⟩ : BufTy).Contents (Elt F) → (⟨S16384x49, .f32⟩ : BufTy).Contents (Elt F) → (⟨S16384x49, .f32⟩ : BufTy).Contents (Elt F)),
    binary main_v156 main_v157 main_v158 (mulf : (⟨S16384x49, .f32⟩ : BufTy).Contents (Elt F) → (⟨S16384x49, .f32⟩ : BufTy).Contents (Elt F) → (⟨S16384x49, .f32⟩ : BufTy).Contents (Elt F)),
    unary main_v158 main_v159 (Host.absf : (⟨S16384x49, .f32⟩ : BufTy).Contents (Elt F) → (⟨S16384x49, .f32⟩ : BufTy).Contents (Elt F)),
    binary main_v139 main_v125 main_v160 (subf : (⟨S16384x49, .f32⟩ : BufTy).Contents (Elt F) → (⟨S16384x49, .f32⟩ : BufTy).Contents (Elt F) → (⟨S16384x49, .f32⟩ : BufTy).Contents (Elt F)),
    binary main_v146 main_v132 main_v161 (subf : (⟨S16384x49, .f32⟩ : BufTy).Contents (Elt F) → (⟨S16384x49, .f32⟩ : BufTy).Contents (Elt F) → (⟨S16384x49, .f32⟩ : BufTy).Contents (Elt F)),
    binary main_v160 main_v161 main_v162 (mulf : (⟨S16384x49, .f32⟩ : BufTy).Contents (Elt F) → (⟨S16384x49, .f32⟩ : BufTy).Contents (Elt F) → (⟨S16384x49, .f32⟩ : BufTy).Contents (Elt F)),
    unary main_v162 main_v163 (Host.absf : (⟨S16384x49, .f32⟩ : BufTy).Contents (Elt F) → (⟨S16384x49, .f32⟩ : BufTy).Contents (Elt F)),
    binary main_v159 main_v163 main_v164 (addf : (⟨S16384x49, .f32⟩ : BufTy).Contents (Elt F) → (⟨S16384x49, .f32⟩ : BufTy).Contents (Elt F) → (⟨S16384x49, .f32⟩ : BufTy).Contents (Elt F)),
    binary main_v164 main_v155 main_v165 (subf : (⟨S16384x49, .f32⟩ : BufTy).Contents (Elt F) → (⟨S16384x49, .f32⟩ : BufTy).Contents (Elt F) → (⟨S16384x49, .f32⟩ : BufTy).Contents (Elt F)),
    nullary main_cst_22 (constant S_ .f32 0x358637BD#32),
    unary main_cst_22 main_v166 (broadcastInDim S16384x49 ![] bcast_S_S16384x49 : (⟨S_, .f32⟩ : BufTy).Contents (Elt F) → (⟨S16384x49, .f32⟩ : BufTy).Contents (Elt F)),
    binary main_v165 main_v166 main_v167 (addf : (⟨S16384x49, .f32⟩ : BufTy).Contents (Elt F) → (⟨S16384x49, .f32⟩ : BufTy).Contents (Elt F) → (⟨S16384x49, .f32⟩ : BufTy).Contents (Elt F)),
    binary main_v155 main_v167 main_v168 (Host.divf : (⟨S16384x49, .f32⟩ : BufTy).Contents (Elt F) → (⟨S16384x49, .f32⟩ : BufTy).Contents (Elt F) → (⟨S16384x49, .f32⟩ : BufTy).Contents (Elt F)),
    binary main_v88 main_v168 main_v169 (cmpf .ogt : (⟨S16384x49, .f32⟩ : BufTy).Contents (Elt F) → (⟨S16384x49, .f32⟩ : BufTy).Contents (Elt F) → (⟨S16384x49, .i1⟩ : BufTy).Contents (Elt F)),
    unary main_v169 main_v170 (broadcastInDim S16384x49x1 ![0, 1] bcast_S16384x49_S16384x49x1_0_1 : (⟨S16384x49, .i1⟩ : BufTy).Contents (Elt F) → (⟨S16384x49x1, .i1⟩ : BufTy).Contents (Elt F)),
    unary main_v1 main_v171 ((extractStridedSlice S16384x49x4 ![0, 0, 0] · slices_S16384x49x30_S16384x49x4_0_0_0) : (⟨S16384x49x30, .f32⟩ : BufTy).Contents (Elt F) → (⟨S16384x49x4, .f32⟩ : BufTy).Contents (Elt F)),
    unary main_v1 main_v172 ((extractStridedSlice S16384x49x4 ![0, 0, 5] · slices_S16384x49x30_S16384x49x4_0_0_5) : (⟨S16384x49x30, .f32⟩ : BufTy).Contents (Elt F) → (⟨S16384x49x4, .f32⟩ : BufTy).Contents (Elt F)),
    TRef.unary (TRef.of (T := ⟨S16384x49x1, .i1⟩) main_v170) (TRef.of (T := ⟨S16384x49x4, .i1⟩) main_call4_v0) (broadcastInDim S16384x49x4 ![0, 1, 2] bcast_S16384x49x1_S16384x49x4_0_1_2),
    TRef.ternary (TRef.of (T := ⟨S16384x49x4, .i1⟩) main_call4_v0) (TRef.of (T := ⟨S16384x49x4, .f32⟩) main_v171) (TRef.of (T := ⟨S16384x49x4, .f32⟩) main_v172) (TRef.of (T := ⟨S16384x49x4, .f32⟩) main_v173) select,
    unary main_v1 main_v174 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v174 main_v175 rfl shapeCasts_S16384x49x1_S16384x49,
    unary main_v1 main_v176 ((extractStridedSlice S16384x49x1 ![0, 0, 9] · slices_S16384x49x30_S16384x49x1_0_0_9) : (⟨S16384x49x30, .f32⟩ : BufTy).Contents (Elt F) → (⟨S16384x49x1, .f32⟩ : BufTy).Contents (Elt F)),
    reshape main_v176 main_v177 rfl shapeCasts_S16384x49x1_S16384x49,
    TRef.ternary (TRef.of (T := ⟨S16384x49, .i1⟩) main_v169) (TRef.of (T := ⟨S16384x49, .f32⟩) main_v175) (TRef.of (T := ⟨S16384x49, .f32⟩) main_v177) (TRef.of (T := ⟨S16384x49, .f32⟩) main_v178) select,
    unary main_v1 main_v179 ((extractStridedSlice S16384x49x1 ![0, 0, 9] · slices_S16384x49x30_S16384x49x1_0_0_9) : (⟨S16384x49x30, .f32⟩ : BufTy).Contents (Elt F) → (⟨S16384x49x1, .f32⟩ : BufTy).Contents (Elt F)),
    reshape main_v179 main_v180 rfl shapeCasts_S16384x49x1_S16384x49,
    unary main_v1 main_v181 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v181 main_v182 rfl shapeCasts_S16384x49x1_S16384x49,
    TRef.ternary (TRef.of (T := ⟨S16384x49, .i1⟩) main_v169) (TRef.of (T := ⟨S16384x49, .f32⟩) main_v180) (TRef.of (T := ⟨S16384x49, .f32⟩) main_v182) (TRef.of (T := ⟨S16384x49, .f32⟩) main_v183) select,
    unary main_v0 main_v184 ((extractStridedSlice S16384x49x1 ![0, 0, 0] · slices_S16384x49x30_S16384x49x1_0_0_0) : (⟨S16384x49x30, .f32⟩ : BufTy).Contents (Elt F) → (⟨S16384x49x1, .f32⟩ : BufTy).Contents (Elt F)),
    reshape main_v184 main_v185 rfl shapeCasts_S16384x49x1_S16384x49,
    unary main_v173 main_v186 ((extractStridedSlice S16384x49x1 ![0, 0, 0] · slices_S16384x49x4_S16384x49x1_0_0_0) : (⟨S16384x49x4, .f32⟩ : BufTy).Contents (Elt F) → (⟨S16384x49x1, .f32⟩ : BufTy).Contents (Elt F)),
    reshape main_v186 main_v187 rfl shapeCasts_S16384x49x1_S16384x49,
    binary main_v185 main_v187 main_v188 (subf : (⟨S16384x49, .f32⟩ : BufTy).Contents (Elt F) → (⟨S16384x49, .f32⟩ : BufTy).Contents (Elt F) → (⟨S16384x49, .f32⟩ : BufTy).Contents (Elt F)),
    binary main_v188 main_v188 main_v189 (mulf : (⟨S16384x49, .f32⟩ : BufTy).Contents (Elt F) → (⟨S16384x49, .f32⟩ : BufTy).Contents (Elt F) → (⟨S16384x49, .f32⟩ : BufTy).Contents (Elt F)),
    unary main_v0 main_v190 ((extractStridedSlice S16384x49x1 ![0, 0, 1] · slices_S16384x49x30_S16384x49x1_0_0_1) : (⟨S16384x49x30, .f32⟩ : BufTy).Contents (Elt F) → (⟨S16384x49x1, .f32⟩ : BufTy).Contents (Elt F)),
    reshape main_v190 main_v191 rfl shapeCasts_S16384x49x1_S16384x49,
    unary main_v173 main_v192 ((extractStridedSlice S16384x49x1 ![0, 0, 1] · slices_S16384x49x4_S16384x49x1_0_0_1) : (⟨S16384x49x4, .f32⟩ : BufTy).Contents (Elt F) → (⟨S16384x49x1, .f32⟩ : BufTy).Contents (Elt F)),
    reshape main_v192 main_v193 rfl shapeCasts_S16384x49x1_S16384x49,
    binary main_v191 main_v193 main_v194 (subf : (⟨S16384x49, .f32⟩ : BufTy).Contents (Elt F) → (⟨S16384x49, .f32⟩ : BufTy).Contents (Elt F) → (⟨S16384x49, .f32⟩ : BufTy).Contents (Elt F)),
    binary main_v194 main_v194 main_v195 (mulf : (⟨S16384x49, .f32⟩ : BufTy).Contents (Elt F) → (⟨S16384x49, .f32⟩ : BufTy).Contents (Elt F) → (⟨S16384x49, .f32⟩ : BufTy).Contents (Elt F)),
    binary main_v189 main_v195 main_v196 (addf : (⟨S16384x49, .f32⟩ : BufTy).Contents (Elt F) → (⟨S16384x49, .f32⟩ : BufTy).Contents (Elt F) → (⟨S16384x49, .f32⟩ : BufTy).Contents (Elt F)),
    unary main_v0 main_v197 ((extractStridedSlice S16384x49x1 ![0, 0, 2] · slices_S16384x49x30_S16384x49x1_0_0_2) : (⟨S16384x49x30, .f32⟩ : BufTy).Contents (Elt F) → (⟨S16384x49x1, .f32⟩ : BufTy).Contents (Elt F)),
    reshape main_v197 main_v198 rfl shapeCasts_S16384x49x1_S16384x49,
    unary main_v198 main_v199 (Host.sqrt : (⟨S16384x49, .f32⟩ : BufTy).Contents (Elt F) → (⟨S16384x49, .f32⟩ : BufTy).Contents (Elt F)),
    unary main_v173 main_v200 ((extractStridedSlice S16384x49x1 ![0, 0, 2] · slices_S16384x49x4_S16384x49x1_0_0_2) : (⟨S16384x49x4, .f32⟩ : BufTy).Contents (Elt F) → (⟨S16384x49x1, .f32⟩ : BufTy).Contents (Elt F)),
    reshape main_v200 main_v201 rfl shapeCasts_S16384x49x1_S16384x49,
    nullary main_cst_23 (constant S_ .f32 0x358637BD#32),
    unary main_cst_23 main_v202 (broadcastInDim S16384x49 ![] bcast_S_S16384x49 : (⟨S_, .f32⟩ : BufTy).Contents (Elt F) → (⟨S16384x49, .f32⟩ : BufTy).Contents (Elt F)),
    binary main_v201 main_v202 main_v203 (addf : (⟨S16384x49, .f32⟩ : BufTy).Contents (Elt F) → (⟨S16384x49, .f32⟩ : BufTy).Contents (Elt F) → (⟨S16384x49, .f32⟩ : BufTy).Contents (Elt F)),
    unary main_v203 main_v204 (Host.absf : (⟨S16384x49, .f32⟩ : BufTy).Contents (Elt F) → (⟨S16384x49, .f32⟩ : BufTy).Contents (Elt F)),
    unary main_v204 main_v205 (Host.sqrt : (⟨S16384x49, .f32⟩ : BufTy).Contents (Elt F) → (⟨S16384x49, .f32⟩ : BufTy).Contents (Elt F)),
    binary main_v199 main_v205 main_v206 (subf : (⟨S16384x49, .f32⟩ : BufTy).Contents (Elt F) → (⟨S16384x49, .f32⟩ : BufTy).Contents (Elt F) → (⟨S16384x49, .f32⟩ : BufTy).Contents (Elt F)),
    binary main_v206 main_v206 main_v207 (mulf : (⟨S16384x49, .f32⟩ : BufTy).Contents (Elt F) → (⟨S16384x49, .f32⟩ : BufTy).Contents (Elt F) → (⟨S16384x49, .f32⟩ : BufTy).Contents (Elt F)),
    unary main_v0 main_v208 ((extractStridedSlice S16384x49x1 ![0, 0, 3] · slices_S16384x49x30_S16384x49x1_0_0_3) : (⟨S16384x49x30, .f32⟩ : BufTy).Contents (Elt F) → (⟨S16384x49x1, .f32⟩ : BufTy).Contents (Elt F)),
    reshape main_v208 main_v209 rfl shapeCasts_S16384x49x1_S16384x49,
    unary main_v209 main_v210 (Host.sqrt : (⟨S16384x49, .f32⟩ : BufTy).Contents (Elt F) → (⟨S16384x49, .f32⟩ : BufTy).Contents (Elt F)),
    unary main_v173 main_v211 ((extractStridedSlice S16384x49x1 ![0, 0, 3] · slices_S16384x49x4_S16384x49x1_0_0_3) : (⟨S16384x49x4, .f32⟩ : BufTy).Contents (Elt F) → (⟨S16384x49x1, .f32⟩ : BufTy).Contents (Elt F)),
    reshape main_v211 main_v212 rfl shapeCasts_S16384x49x1_S16384x49,
    nullary main_cst_24 (constant S_ .f32 0x358637BD#32),
    unary main_cst_24 main_v213 (broadcastInDim S16384x49 ![] bcast_S_S16384x49 : (⟨S_, .f32⟩ : BufTy).Contents (Elt F) → (⟨S16384x49, .f32⟩ : BufTy).Contents (Elt F)) ]

set_option maxHeartbeats 40000000 in
set_option maxRecDepth 8192 in
/-- Part 3 of the program is that list run in order. -/
theorem part3_eq (d : Dev nD) : main_part3 (F := F) d = seq win3 := rfl

set_option maxRecDepth 8192 in
/-- Each operation of the window touches TensorCore buffers only. -/
theorem win3_sub : (win3 : List (HloOp τ sig (Elt F))).Forall fun op => op.bufs ⊆ tcRefs τ sig :=
  ⟨binary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., ternary_bufs_sub .., unary_bufs_sub .., reshape_bufs_sub .., unary_bufs_sub .., reshape_bufs_sub .., ternary_bufs_sub .., unary_bufs_sub .., reshape_bufs_sub .., unary_bufs_sub .., reshape_bufs_sub .., ternary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., unary_bufs_sub .., reshape_bufs_sub .., unary_bufs_sub .., unary_bufs_sub .., reshape_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., reshape_bufs_sub .., nullary_bufs_sub .., unary_bufs_sub ..⟩

/-- After window 3: the values a later operation still reads, and the arguments. -/
structure Live3 (W : Valuation τ sig (Elt F)) (x0 x1 : (⟨S16384x7x7x30, .f32⟩ : BufTy).Contents (Elt F)) : Prop where
  arg0 : W (Proc.devRef .tc main_arg0) = x0
  arg1 : W (Proc.devRef .tc main_arg1) = x1
  v0 : W (Proc.devRef .tc main_v0) = val_main_v0 (F := F) x0
  v1 : W (Proc.devRef .tc main_v1) = val_main_v1 (F := F) x1
  v6 : W (Proc.devRef .tc main_v6) = val_main_v6 (F := F) x0
  v8 : W (Proc.devRef .tc main_v8) = val_main_v8 (F := F) x0
  v178 : W (Proc.devRef .tc main_v178) = val_main_v178 (F := F) x0 x1
  v183 : W (Proc.devRef .tc main_v183) = val_main_v183 (F := F) x0 x1
  v196 : W (Proc.devRef .tc main_v196) = val_main_v196 (F := F) x0 x1
  v207 : W (Proc.devRef .tc main_v207) = val_main_v207 (F := F) x0 x1
  v210 : W (Proc.devRef .tc main_v210) = val_main_v210 (F := F) x0
  v212 : W (Proc.devRef .tc main_v212) = val_main_v212 (F := F) x0 x1
  v213 : W (Proc.devRef .tc main_v213) = val_main_v213 (F := F)

set_option maxHeartbeats 40000000 in
set_option maxRecDepth 8192 in
/-- Operations 250 … 299 of the reference (its part 4), in order. -/
abbrev win4 : List (HloOp τ sig (Elt F)) :=
  [ binary main_v212 main_v213 main_v214 (addf : (⟨S16384x49, .f32⟩ : BufTy).Contents (Elt F) → (⟨S16384x49, .f32⟩ : BufTy).Contents (Elt F) → (⟨S16384x49, .f32⟩ : BufTy).Contents (Elt F)),
    unary main_v214 main_v215 (Host.absf : (⟨S16384x49, .f32⟩ : BufTy).Contents (Elt F) → (⟨S16384x49, .f32⟩ : BufTy).Contents (Elt F)),
    unary main_v215 main_v216 (Host.sqrt : (⟨S16384x49, .f32⟩ : BufTy).Contents (Elt F) → (⟨S16384x49, .f32⟩ : BufTy).Contents (Elt F)),
    binary main_v210 main_v216 main_v217 (subf : (⟨S16384x49, .f32⟩ : BufTy).Contents (Elt F) → (⟨S16384x49, .f32⟩ : BufTy).Contents (Elt F) → (⟨S16384x49, .f32⟩ : BufTy).Contents (Elt F)),
    binary main_v217 main_v217 main_v218 (mulf : (⟨S16384x49, .f32⟩ : BufTy).Contents (Elt F) → (⟨S16384x49, .f32⟩ : BufTy).Contents (Elt F) → (⟨S16384x49, .f32⟩ : BufTy).Contents (Elt F)),
    binary main_v207 main_v218 main_v219 (addf : (⟨S16384x49, .f32⟩ : BufTy).Contents (Elt F) → (⟨S16384x49, .f32⟩ : BufTy).Contents (Elt F) → (⟨S16384x49, .f32⟩ : BufTy).Contents (Elt F)),
    unary main_v0 main_v220 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v220 main_v221 rfl shapeCasts_S16384x49x1_S16384x49,
    binary main_v221 main_v178 main_v222 (subf : (⟨S16384x49, .f32⟩ : BufTy).Contents (Elt F) → (⟨S16384x49, .f32⟩ : BufTy).Contents (Elt F) → (⟨S16384x49, .f32⟩ : BufTy).Contents (Elt F)),
    binary main_v222 main_v222 main_v223 (mulf : (⟨S16384x49, .f32⟩ : BufTy).Contents (Elt F) → (⟨S16384x49, .f32⟩ : BufTy).Contents (Elt F) → (⟨S16384x49, .f32⟩ : BufTy).Contents (Elt F)),
    binary main_v183 main_v183 main_v224 (mulf : (⟨S16384x49, .f32⟩ : BufTy).Contents (Elt F) → (⟨S16384x49, .f32⟩ : BufTy).Contents (Elt F) → (⟨S16384x49, .f32⟩ : BufTy).Contents (Elt F)),
    nullary main_cst_25 (constant S_ .f32 0x3F000000#32),
    unary main_cst_25 main_v225 (broadcastInDim S16384x49 ![] bcast_S_S16384x49 : (⟨S_, .f32⟩ : BufTy).Contents (Elt F) → (⟨S16384x49, .f32⟩ : BufTy).Contents (Elt F)),
    binary main_v225 main_v224 main_v226 (mulf : (⟨S16384x49, .f32⟩ : BufTy).Contents (Elt F) → (⟨S16384x49, .f32⟩ : BufTy).Contents (Elt F) → (⟨S16384x49, .f32⟩ : BufTy).Contents (Elt F)),
    unary main_v0 main_v227 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v227 main_v228 rfl shapeCasts_S16384x49x1_S16384x49,
    unary main_v1 main_v229 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v229 main_v230 rfl shapeCasts_S16384x49x1_S16384x49,
    binary main_v228 main_v230 main_v231 (subf : (⟨S16384x49, .f32⟩ : BufTy).Contents (Elt F) → (⟨S16384x49, .f32⟩ : BufTy).Contents (Elt F) → (⟨S16384x49, .f32⟩ : BufTy).Contents (Elt F)),
    binary main_v231 main_v231 main_v232 (mulf : (⟨S16384x49, .f32⟩ : BufTy).Contents (Elt F) → (⟨S16384x49, .f32⟩ : BufTy).Contents (Elt F) → (⟨S16384x49, .f32⟩ : BufTy).Contents (Elt F)),
    unary main_v0 main_v233 ((extractStridedSlice S16384x49x1 ![0, 0, 4] · slices_S16384x49x30_S16384x49x1_0_0_4) : (⟨S16384x49x30, .f32⟩ : BufTy).Contents (Elt F) → (⟨S16384x49x1, .f32⟩ : BufTy).Contents (Elt F)),
    reshape main_v233 main_v234 rfl shapeCasts_S16384x49x1_S16384x49,
    unary main_v1 main_v235 ((extractStridedSlice S16384x49x1 ![0, 0, 9] · slices_S16384x49x30_S16384x49x1_0_0_9) : (⟨S16384x49x30, .f32⟩ : BufTy).Contents (Elt F) → (⟨S16384x49x1, .f32⟩ : BufTy).Contents (Elt F)),
    reshape main_v235 main_v236 rfl shapeCasts_S16384x49x1_S16384x49,
    binary main_v234 main_v236 main_v237 (subf : (⟨S16384x49, .f32⟩ : BufTy).Contents (Elt F) → (⟨S16384x49, .f32⟩ : BufTy).Contents (Elt F) → (⟨S16384x49, .f32⟩ : BufTy).Contents (Elt F)),
    binary main_v237 main_v237 main_v238 (mulf : (⟨S16384x49, .f32⟩ : BufTy).Contents (Elt F) → (⟨S16384x49, .f32⟩ : BufTy).Contents (Elt F) → (⟨S16384x49, .f32⟩ : BufTy).Contents (Elt F)),
    binary main_v232 main_v238 main_v239 (addf : (⟨S16384x49, .f32⟩ : BufTy).Contents (Elt F) → (⟨S16384x49, .f32⟩ : BufTy).Contents (Elt F) → (⟨S16384x49, .f32⟩ : BufTy).Contents (Elt F)),
    nullary main_cst_26 (constant S_ .f32 0x3F000000#32),
    unary main_cst_26 main_v240 (broadcastInDim S16384x49 ![] bcast_S_S16384x49 : (⟨S_, .f32⟩ : BufTy).Contents (Elt F) → (⟨S16384x49, .f32⟩ : BufTy).Contents (Elt F)),
    binary main_v240 main_v239 main_v241 (mulf : (⟨S16384x49, .f32⟩ : BufTy).Contents (Elt F) → (⟨S16384x49, .f32⟩ : BufTy).Contents (Elt F) → (⟨S16384x49, .f32⟩ : BufTy).Contents (Elt F)),
    unary main_v0 main_v242 ((extractStridedSlice S16384x49x20 ![0, 0, 10] · slices_S16384x49x30_S16384x49x20_0_0_10) : (⟨S16384x49x30, .f32⟩ : BufTy).Contents (Elt F) → (⟨S16384x49x20, .f32⟩ : BufTy).Contents (Elt F)),
    unary main_v1 main_v243 ((extractStridedSlice S16384x49x20 ![0, 0, 10] · slices_S16384x49x30_S16384x49x20_0_0_10) : (⟨S16384x49x30, .f32⟩ : BufTy).Contents (Elt F) → (⟨S16384x49x20, .f32⟩ : BufTy).Contents (Elt F)),
    binary main_v242 main_v243 main_v244 (subf : (⟨S16384x49x20, .f32⟩ : BufTy).Contents (Elt F) → (⟨S16384x49x20, .f32⟩ : BufTy).Contents (Elt F) → (⟨S16384x49x20, .f32⟩ : BufTy).Contents (Elt F)),
    binary main_v244 main_v244 main_v245 (mulf : (⟨S16384x49x20, .f32⟩ : BufTy).Contents (Elt F) → (⟨S16384x49x20, .f32⟩ : BufTy).Contents (Elt F) → (⟨S16384x49x20, .f32⟩ : BufTy).Contents (Elt F)),
    nullary main_cst_27 (constant S_ .f32 0x00000000#32),
    binary main_v245 main_cst_27 main_v246 ((fun x v => Host.reduceAdd x v reducesTo_S16384x49x20_S16384x49_d2 h_S_) : (⟨S16384x49x20, .f32⟩ : BufTy).Contents (Elt F) → (⟨S_, .f32⟩ : BufTy).Contents (Elt F) → (⟨S16384x49, .f32⟩ : BufTy).Contents (Elt F)),
    binary main_v196 main_v219 main_v247 (addf : (⟨S16384x49, .f32⟩ : BufTy).Contents (Elt F) → (⟨S16384x49, .f32⟩ : BufTy).Contents (Elt F) → (⟨S16384x49, .f32⟩ : BufTy).Contents (Elt F)),
    nullary main_cst_28 (constant S_ .f32 0x40A00000#32),
    unary main_cst_28 main_v248 (broadcastInDim S16384x49 ![] bcast_S_S16384x49 : (⟨S_, .f32⟩ : BufTy).Contents (Elt F) → (⟨S16384x49, .f32⟩ : BufTy).Contents (Elt F)),
    binary main_v248 main_v247 main_v249 (mulf : (⟨S16384x49, .f32⟩ : BufTy).Contents (Elt F) → (⟨S16384x49, .f32⟩ : BufTy).Contents (Elt F) → (⟨S16384x49, .f32⟩ : BufTy).Contents (Elt F)),
    binary main_v249 main_v223 main_v250 (addf : (⟨S16384x49, .f32⟩ : BufTy).Contents (Elt F) → (⟨S16384x49, .f32⟩ : BufTy).Contents (Elt F) → (⟨S16384x49, .f32⟩ : BufTy).Contents (Elt F)),
    binary main_v250 main_v226 main_v251 (addf : (⟨S16384x49, .f32⟩ : BufTy).Contents (Elt F) → (⟨S16384x49, .f32⟩ : BufTy).Contents (Elt F) → (⟨S16384x49, .f32⟩ : BufTy).Contents (Elt F)),
    binary main_v251 main_v246 main_v252 (addf : (⟨S16384x49, .f32⟩ : BufTy).Contents (Elt F) → (⟨S16384x49, .f32⟩ : BufTy).Contents (Elt F) → (⟨S16384x49, .f32⟩ : BufTy).Contents (Elt F)),
    binary main_v6 main_v252 main_v253 (mulf : (⟨S16384x49, .f32⟩ : BufTy).Contents (Elt F) → (⟨S16384x49, .f32⟩ : BufTy).Contents (Elt F) → (⟨S16384x49, .f32⟩ : BufTy).Contents (Elt F)),
    binary main_v8 main_v241 main_v254 (mulf : (⟨S16384x49, .f32⟩ : BufTy).Contents (Elt F) → (⟨S16384x49, .f32⟩ : BufTy).Contents (Elt F) → (⟨S16384x49, .f32⟩ : BufTy).Contents (Elt F)),
    binary main_v253 main_v254 main_v255 (addf : (⟨S16384x49, .f32⟩ : BufTy).Contents (Elt F) → (⟨S16384x49, .f32⟩ : BufTy).Contents (Elt F) → (⟨S16384x49, .f32⟩ : BufTy).Contents (Elt F)),
    nullary main_cst_29 (constant S_ .f32 0x00000000#32),
    binary main_v255 main_cst_29 main_v256 ((fun x v => Host.reduceAdd x v reducesTo_S16384x49_S_d0_1 h_S_) : (⟨S16384x49, .f32⟩ : BufTy).Contents (Elt F) → (⟨S_, .f32⟩ : BufTy).Contents (Elt F) → (⟨S_, .f32⟩ : BufTy).Contents (Elt F)),
    nullary main_cst_30 (constant S_ .f32 0x46800000#32),
    binary main_v256 main_cst_30 main_v257 (Host.divf : (⟨S_, .f32⟩ : BufTy).Contents (Elt F) → (⟨S_, .f32⟩ : BufTy).Contents (Elt F) → (⟨S_, .f32⟩ : BufTy).Contents (Elt F)) ]

set_option maxHeartbeats 40000000 in
set_option maxRecDepth 8192 in
/-- Part 4 of the program is that list run in order. -/
theorem part4_eq (d : Dev nD) : main_part4 (F := F) d = seq win4 := rfl

set_option maxRecDepth 8192 in
/-- Each operation of the window touches TensorCore buffers only. -/
theorem win4_sub : (win4 : List (HloOp τ sig (Elt F))).Forall fun op => op.bufs ⊆ tcRefs τ sig :=
  ⟨binary_bufs_sub .., unary_bufs_sub .., unary_bufs_sub .., binary_bufs_sub .., binary_bufs_sub .., binary_bufs_sub .., unary_bufs_sub .., reshape_bufs_sub .., binary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., nullary_bufs_sub .., binary_bufs_sub .., nullary_bufs_sub .., binary_bufs_sub ..⟩

/-- After window 4: the values a later operation still reads, and the arguments. -/
structure Live4 (W : Valuation τ sig (Elt F)) (x0 x1 : (⟨S16384x7x7x30, .f32⟩ : BufTy).Contents (Elt F)) : Prop where
  arg0 : W (Proc.devRef .tc main_arg0) = x0
  arg1 : W (Proc.devRef .tc main_arg1) = x1
  v257 : W (Proc.devRef .tc main_v257) = val_main_v257 (F := F) x0 x1

/-- The reference's 299 operations: its five windows in order. -/
abbrev ops : List (HloOp τ sig (Elt F)) := win0 ++ (win1 ++ (win2 ++ (win3 ++ win4)))

/-- The program is that line run in order. -/
theorem main_eq (c : Dev nD) : main (F := F) c = seq ops := by
  show (do main_part0 (F := F) c; main_part1 c; main_part2 c; main_part3 c; main_part4 c) = _
  rw [part0_eq, part1_eq, part2_eq, part3_eq, part4_eq]
  simp only [ops, seq_append]

/-- Every operation touches TensorCore buffers only. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h
  · exact List.forall_iff_forall_mem.mp win0_sub op h
  · exact List.forall_iff_forall_mem.mp win1_sub op h
  · exact List.forall_iff_forall_mem.mp win2_sub op h
  · exact List.forall_iff_forall_mem.mp win3_sub op h
  · exact List.forall_iff_forall_mem.mp win4_sub op h

end Cert.Yolo.RefRun

end
-- ==== Proof.RefStep0.lean ====
/-
  Window 0 of the reference (operations 1 … 60): from the values known before it, the values known after it.
  A value the window computes is its operations' composition of values known before, which is that value's stage by
  unfolding; a value computed earlier is not overwritten (every buffer is written once).
-/
import proofs.«165325_j53360673686126_1_alg».proof.Proof.RefWin

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 400000000 in
theorem step0 (W : Valuation τ sig (Elt F)) (x0 x1 : (⟨S16384x7x7x30, .f32⟩ : BufTy).Contents (Elt F)) (h : Start W x0 x1) :
    Live0 (after (win0 (F := F)) W) x0 x1 where
  arg0 := by after_results_simp; exact h.arg0
  arg1 := by after_results_simp; exact h.arg1
  v0 := by
    after_results_simp
    try simp only [h.arg0, h.arg1]
    try rfl
  v1 := by
    after_results_simp
    try simp only [h.arg0, h.arg1]
    try rfl
  v6 := by
    after_results_simp
    try simp only [h.arg0, h.arg1]
    try rfl
  v8 := by
    after_results_simp
    try simp only [h.arg0, h.arg1]
    try rfl
  v10 := by
    after_results_simp
    try simp only [h.arg0, h.arg1]
    try rfl
  v17 := by
    after_results_simp
    try simp only [h.arg0, h.arg1]
    try rfl
  v24 := by
    after_results_simp
    try simp only [h.arg0, h.arg1]
    try rfl
  v31 := by
    after_results_simp
    try simp only [h.arg0, h.arg1]
    try rfl
  v38 := by
    after_results_simp
    try simp only [h.arg0, h.arg1]
    try rfl
  v45 := by
    after_results_simp
    try simp only [h.arg0, h.arg1]
    try rfl
  v47 := by
    after_results_simp
    try simp only [h.arg0, h.arg1]
    try rfl
  v51 := by
    after_results_simp
    try simp only [h.arg0, h.arg1]
    try rfl

end Cert.Yolo.RefRun

end
-- ==== Proof.RefStep1.lean ====
/-
  Window 1 of the reference (operations 61 … 124): from the values known before it, the values known after it.
  A value the window computes is its operations' composition of values known before, which is that value's stage by
  unfolding; a value computed earlier is not overwritten (every buffer is written once).
-/
import proofs.«165325_j53360673686126_1_alg».proof.Proof.RefWin

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 400000000 in
theorem step1 (W : Valuation τ sig (Elt F)) (x0 x1 : (⟨S16384x7x7x30, .f32⟩ : BufTy).Contents (Elt F)) (h : Live0 W x0 x1) :
    Live1 (after (win1 (F := F)) W) x0 x1 where
  arg0 := by after_results_simp; exact h.arg0
  arg1 := by after_results_simp; exact h.arg1
  v0 := by after_results_simp; exact h.v0
  v1 := by after_results_simp; exact h.v1
  v6 := by after_results_simp; exact h.v6
  v8 := by after_results_simp; exact h.v8
  v88 := by
    after_results_simp
    try simp only [h.arg0, h.arg1, h.v0, h.v1, h.v6, h.v8, h.v10, h.v17, h.v24, h.v31, h.v38, h.v45, h.v47, h.v51]
    try rfl
  v89 := by
    after_results_simp
    try simp only [h.arg0, h.arg1, h.v0, h.v1, h.v6, h.v8, h.v10, h.v17, h.v24, h.v31, h.v38, h.v45, h.v47, h.v51]
    try rfl
  v90 := by
    after_results_simp
    try simp only [h.arg0, h.arg1, h.v0, h.v1, h.v6, h.v8, h.v10, h.v17, h.v24, h.v31, h.v38, h.v45, h.v47, h.v51]
    try rfl
  v97 := by
    after_results_simp
    try simp only [h.arg0, h.arg1, h.v0, h.v1, h.v6, h.v8, h.v10, h.v17, h.v24, h.v31, h.v38, h.v45, h.v47, h.v51]
    try rfl
  v104 := by
    after_results_simp
    try simp only [h.arg0, h.arg1, h.v0, h.v1, h.v6, h.v8, h.v10, h.v17, h.v24, h.v31, h.v38, h.v45, h.v47, h.v51]
    try rfl

end Cert.Yolo.RefRun

end
-- ==== Proof.RefStep2.lean ====
/-
  Window 2 of the reference (operations 125 … 188): from the values known before it, the values known after it.
  A value the window computes is its operations' composition of values known before, which is that value's stage by
  unfolding; a value computed earlier is not overwritten (every buffer is written once).
-/
import proofs.«165325_j53360673686126_1_alg».proof.Proof.RefWin

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 400000000 in
theorem step2 (W : Valuation τ sig (Elt F)) (x0 x1 : (⟨S16384x7x7x30, .f32⟩ : BufTy).Contents (Elt F)) (h : Live1 W x0 x1) :
    Live2 (after (win2 (F := F)) W) x0 x1 where
  arg0 := by after_results_simp; exact h.arg0
  arg1 := by after_results_simp; exact h.arg1
  v0 := by after_results_simp; exact h.v0
  v1 := by after_results_simp; exact h.v1
  v6 := by after_results_simp; exact h.v6
  v8 := by after_results_simp; exact h.v8
  v88 := by after_results_simp; exact h.v88
  v104 := by after_results_simp; exact h.v104
  v118 := by
    after_results_simp
    try simp only [h.arg0, h.arg1, h.v0, h.v1, h.v6, h.v8, h.v88, h.v89, h.v90, h.v97, h.v104]
    try rfl
  v125 := by
    after_results_simp
    try simp only [h.arg0, h.arg1, h.v0, h.v1, h.v6, h.v8, h.v88, h.v89, h.v90, h.v97, h.v104]
    try rfl
  v132 := by
    after_results_simp
    try simp only [h.arg0, h.arg1, h.v0, h.v1, h.v6, h.v8, h.v88, h.v89, h.v90, h.v97, h.v104]
    try rfl
  v139 := by
    after_results_simp
    try simp only [h.arg0, h.arg1, h.v0, h.v1, h.v6, h.v8, h.v88, h.v89, h.v90, h.v97, h.v104]
    try rfl
  v146 := by
    after_results_simp
    try simp only [h.arg0, h.arg1, h.v0, h.v1, h.v6, h.v8, h.v88, h.v89, h.v90, h.v97, h.v104]
    try rfl
  v155 := by
    after_results_simp
    try simp only [h.arg0, h.arg1, h.v0, h.v1, h.v6, h.v8, h.v88, h.v89, h.v90, h.v97, h.v104]
    try rfl
  v156 := by
    after_results_simp
    try simp only [h.arg0, h.arg1, h.v0, h.v1, h.v6, h.v8, h.v88, h.v89, h.v90, h.v97, h.v104]
    try rfl

end Cert.Yolo.RefRun

end
-- ==== Proof.RefStep3.lean ====
/-
  Window 3 of the reference (operations 189 … 249): from the values known before it, the values known after it.
  A value the window computes is its operations' composition of values known before, which is that value's stage by
  unfolding; a value computed earlier is not overwritten (every buffer is written once).
-/
import proofs.«165325_j53360673686126_1_alg».proof.Proof.RefWin

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 400000000 in
theorem step3 (W : Valuation τ sig (Elt F)) (x0 x1 : (⟨S16384x7x7x30, .f32⟩ : BufTy).Contents (Elt F)) (h : Live2 W x0 x1) :
    Live3 (after (win3 (F := F)) W) x0 x1 where
  arg0 := by after_results_simp; exact h.arg0
  arg1 := by after_results_simp; exact h.arg1
  v0 := by after_results_simp; exact h.v0
  v1 := by after_results_simp; exact h.v1
  v6 := by after_results_simp; exact h.v6
  v8 := by after_results_simp; exact h.v8
  v178 := by
    after_results_simp
    try simp only [h.arg0, h.arg1, h.v0, h.v1, h.v6, h.v8, h.v88, h.v104, h.v118, h.v125, h.v132, h.v139, h.v146, h.v155, h.v156]
    try rfl
  v183 := by
    after_results_simp
    try simp only [h.arg0, h.arg1, h.v0, h.v1, h.v6, h.v8, h.v88, h.v104, h.v118, h.v125, h.v132, h.v139, h.v146, h.v155, h.v156]
    try rfl
  v196 := by
    after_results_simp
    try simp only [h.arg0, h.arg1, h.v0, h.v1, h.v6, h.v8, h.v88, h.v104, h.v118, h.v125, h.v132, h.v139, h.v146, h.v155, h.v156]
    try rfl
  v207 := by
    after_results_simp
    try simp only [h.arg0, h.arg1, h.v0, h.v1, h.v6, h.v8, h.v88, h.v104, h.v118, h.v125, h.v132, h.v139, h.v146, h.v155, h.v156]
    try rfl
  v210 := by
    after_results_simp
    try simp only [h.arg0, h.arg1, h.v0, h.v1, h.v6, h.v8, h.v88, h.v104, h.v118, h.v125, h.v132, h.v139, h.v146, h.v155, h.v156]
    try rfl
  v212 := by
    after_results_simp
    try simp only [h.arg0, h.arg1, h.v0, h.v1, h.v6, h.v8, h.v88, h.v104, h.v118, h.v125, h.v132, h.v139, h.v146, h.v155, h.v156]
    try rfl
  v213 := by
    after_results_simp
    try simp only [h.arg0, h.arg1, h.v0, h.v1, h.v6, h.v8, h.v88, h.v104, h.v118, h.v125, h.v132, h.v139, h.v146, h.v155, h.v156]
    try rfl

end Cert.Yolo.RefRun

end
-- ==== Proof.RefStep4.lean ====
/-
  Window 4 of the reference (operations 250 … 299): from the values known before it, the values known after it.
  A value the window computes is its operations' composition of values known before, which is that value's stage by
  unfolding; a value computed earlier is not overwritten (every buffer is written once).
-/
import proofs.«165325_j53360673686126_1_alg».proof.Proof.RefWin

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 400000000 in
theorem step4 (W : Valuation τ sig (Elt F)) (x0 x1 : (⟨S16384x7x7x30, .f32⟩ : BufTy).Contents (Elt F)) (h : Live3 W x0 x1) :
    Live4 (after (win4 (F := F)) W) x0 x1 where
  arg0 := by after_results_simp; exact h.arg0
  arg1 := by after_results_simp; exact h.arg1
  v257 := by
    after_results_simp
    try simp only [h.arg0, h.arg1, h.v0, h.v1, h.v6, h.v8, h.v178, h.v183, h.v196, h.v207, h.v210, h.v212, h.v213]
    try rfl

end Cert.Yolo.RefRun

end
-- ==== Proof.RefRunW.lean ====
/-
  The reference's run.

  Every weakly fair execution of the reference terminates, without a fault, with its result buffer at the last stage
  of Proof/RefRead.lean — the sum over all cells of their losses, from zero, divided by 16384, as a function of the
  two arguments — and with the arguments as launched.  The library's run of a straight line of host operations
  leaves every buffer at the contents after the operations in order; those contents are read window by window
  (Proof/RefWin.lean, Proof/RefStep0.lean … RefStep4.lean), starting from the launch contents.
-/
import proofs.«165325_j53360673686126_1_alg».proof.Proof.RefStep0
import proofs.«165325_j53360673686126_1_alg».proof.Proof.RefStep1
import proofs.«165325_j53360673686126_1_alg».proof.Proof.RefStep2
import proofs.«165325_j53360673686126_1_alg».proof.Proof.RefStep3
import proofs.«165325_j53360673686126_1_alg».proof.Proof.RefStep4

noncomputable section

namespace Cert.Yolo.RefRun

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- After all 299 operations: the result buffer holds the last stage of the launch contents of the arguments, and
    the argument buffers hold what they held. -/
theorem after_ops (V : Valuation τ sig (Elt F)) :
    Live4 (after (ops (F := F)) V) (V (Proc.devRef .tc main_arg0)) (V (Proc.devRef .tc main_arg1)) := by
  rw [show (ops : List (HloOp τ sig (Elt F))) = win0 ++ (win1 ++ (win2 ++ (win3 ++ win4))) from rfl,
    after_append, after_append, after_append, after_append]
  exact step4 _ _ _ (step3 _ _ _ (step2 _ _ _ (step1 _ _ _ (step0 V _ _ ⟨rfl, rfl⟩))))

/-- On every device, from any memory with zero counters: every weakly fair execution of the reference terminates
    with its result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v257)
        = val_main_v257 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v257).trans (after_ops _).v257, (h c main_arg0).trans (after_ops _).arg0,
     (h c main_arg1).trans (after_ops _).arg1⟩)
    (run_seq scopedRefs_eq scopedSems_eq defs main (fun _ => ops) main_eq (fun _ => ops_sub) m ρ)

end Cert.Yolo.RefRun

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.SumLaw.lean ====
/-
  The two arrangements of the total loss.

  The loss is a sum over the 802816 = 49 · 16384 = 16384 · 49 cells.  The kernel takes it block by block: grid
  point `t` adds up cells 16384 t, …, 16384 t + 16383 and adds that block sum to a running total that starts from
  zero at the first point.  The reference adds over the batch index `n` and the cell-in-image index `s`, cell
  (n, s) being cell 49 n + s.  Both are the one sum over all cells: addition on a commutative monoid may be
  regrouped freely — on the extended reals too, where no finiteness is needed for that.
-/
import Mathlib.Algebra.BigOperators.Fin
import Mathlib.Algebra.BigOperators.Intervals
import proofs.«165325_j53360673686126_1_alg».proof.Proof.LibSumBlocks

namespace Cert.Yolo.SumLaw

open Finset

variable {M : Type*} [AddCommMonoid M]

/-- A running total that starts at `z + S 0` and adds `S (n + 1)` at step `n + 1` is `z` plus the sum of the
    terms so far. -/
theorem running_total (z : M) (S : ℕ → M) (T : ℕ → M) (h0 : T 0 = z + S 0) (hs : ∀ n, T (n + 1) = T n + S (n + 1)) :
    ∀ n, T n = z + ∑ t ∈ range (n + 1), S t
  | 0 => by rw [h0, sum_range_one]
  | n + 1 => by rw [hs, running_total z S T h0 hs n, sum_range_succ _ (n + 1), add_assoc]

/-- The sum over all cells, taken by the kernel's 49 blocks of 16384 consecutive cells. -/
theorem by_blocks (g : Fin 802816 → M) :
    ∑ q : Fin 802816, g q = ∑ t : Fin 49, ∑ r : Fin 16384, g ⟨r.val + 16384 * t.val, by have := r.isLt; have := t.isLt; omega⟩ := by
  rw [← Fin.sum_congr' g (by decide : 49 * 16384 = 802816), Cert.SumBlocks.sum_blocks 49 16384]
  rfl

/-- The sum over all cells, taken by the reference's 16384 images of 49 cells. -/
theorem by_images (g : Fin 802816 → M) :
    ∑ q : Fin 802816, g q = ∑ n : Fin 16384, ∑ s : Fin 49, g ⟨s.val + 49 * n.val, by have := s.isLt; have := n.isLt; omega⟩ := by
  rw [← Fin.sum_congr' g (by decide : 16384 * 49 = 802816), Cert.SumBlocks.sum_blocks 16384 49]
  rfl

end Cert.Yolo.SumLaw
-- ==== Proof.Bridge.lean ====
/-
  The kernel's total and the reference's total are one sum.

  The kernel re-lays each argument [16384, 7, 7, 30] as [802816, 30] and walks it in 49 blocks of 16384 cells;
  the reference re-lays it as [16384, 49, 30] and sums over (image, cell in image).  Both re-layings are
  row-major, so entry (n, s, k) of the second is entry (49 n + s, k) of the first (`ref_row`); and the sum
  over all 802816 cells may be taken by blocks or by images (`SumLaw`), addition on the extended reals being
  commutative and associative.  Hence the two totals agree (`totals_agree`), for any arguments: finiteness of
  the inputs is not used.
-/
import proofs.«165325_j53360673686126_1_alg».proof.Proof.KernelCell
import proofs.«165325_j53360673686126_1_alg».proof.Proof.RefCell
import proofs.«165325_j53360673686126_1_alg».proof.Proof.SumLaw

noncomputable section

namespace Cert.Yolo.Bridge

open Idealize.ShloMosaic Idealize.ShloMosaic.ValueIdx Cert.Yolo

/-- Entry (n, s, k) of an argument re-laid as [16384, 49, 30] is entry (49 n + s, k) of it re-laid as
    [802816, 30]: both are the argument's entry number (49 n + s) · 30 + k in row-major order. -/
theorem ref_row (x : (⟨Cert.ReferenceIdeal.S16384x7x7x30, .f32⟩ : BufTy).Contents (Elt Ideal)) (n : Fin 16384) (s : Fin 49) :
    (fun k => Cert.ReferenceIdeal.ReadP.val_main_v0 (F := Ideal) x (ix3 n s k))
      = Kernel.cellRow x ⟨s.val + 49 * n.val, by have := s.isLt; have := n.isLt; omega⟩ := by
  funext k
  rw [Cert.ReferenceIdeal.ReadP.val_main_v0_apply]
  unfold Kernel.cellRow
  refine (shapeCast_apply x _ _ (Cert.ReferenceIdeal.ReadP.idx_main_v0 (ix3 n s k)) ?_).symm
  rw [Shape.rowMajor_val_four, Shape.rowMajor_val_two]
  have h0 : n.val < 16384 := n.isLt
  have h1 : s.val < 49 := s.isLt
  have h2 : k.val < 30 := k.isLt
  show ((((n.val * 49 + s.val) * 30 + k.val) / 1470 * 7 + ((n.val * 49 + s.val) * 30 + k.val) / 210 % 7) * 7
      + ((n.val * 49 + s.val) * 30 + k.val) / 30 % 7) * 30 + ((n.val * 49 + s.val) * 30 + k.val) % 30
    = (s.val + 49 * n.val) * 30 + k.val
  omega

/-- The same for the second argument's stage (the same re-laying). -/
theorem ref_row' (x : (⟨Cert.ReferenceIdeal.S16384x7x7x30, .f32⟩ : BufTy).Contents (Elt Ideal)) (n : Fin 16384) (s : Fin 49) :
    (fun k => Cert.ReferenceIdeal.ReadP.val_main_v1 (F := Ideal) x (ix3 n s k))
      = Kernel.cellRow x ⟨s.val + 49 * n.val, by have := s.isLt; have := n.isLt; omega⟩ := by
  funext k
  rw [Cert.ReferenceIdeal.ReadP.val_main_v1_apply]
  unfold Kernel.cellRow
  refine (shapeCast_apply x _ _ (Cert.ReferenceIdeal.ReadP.idx_main_v1 (ix3 n s k)) ?_).symm
  rw [Shape.rowMajor_val_four, Shape.rowMajor_val_two]
  have h0 : n.val < 16384 := n.isLt
  have h1 : s.val < 49 := s.isLt
  have h2 : k.val < 30 := k.isLt
  show ((((n.val * 49 + s.val) * 30 + k.val) / 1470 * 7 + ((n.val * 49 + s.val) * 30 + k.val) / 210 % 7) * 7
      + ((n.val * 49 + s.val) * 30 + k.val) / 30 % 7) * 30 + ((n.val * 49 + s.val) * 30 + k.val) % 30
    = (s.val + 49 * n.val) * 30 + k.val
  omega

/-- The kernel's sum over blocks and cells in a block is the reference's sum over images and cells in an image. -/
theorem totals_agree (x0 x1 : (⟨Cert.ReferenceIdeal.S16384x7x7x30, .f32⟩ : BufTy).Contents (Elt Ideal)) :
    (∑ t : Fin 49, ∑ r : Fin 16384,
        cell (Kernel.cellRow x0 ⟨r.val + 16384 * t.val, by have := r.isLt; have := t.isLt; omega⟩)
          (Kernel.cellRow x1 ⟨r.val + 16384 * t.val, by have := r.isLt; have := t.isLt; omega⟩))
    = ∑ j : Cert.ReferenceIdeal.S16384x49.Idx,
        cell (fun k => Cert.ReferenceIdeal.ReadP.val_main_v0 (F := Ideal) x0 (ix3 (j 0) (j 1) k))
          (fun k => Cert.ReferenceIdeal.ReadP.val_main_v1 (F := Ideal) x1 (ix3 (j 0) (j 1) k)) := by
  refine (SumLaw.by_blocks (fun q => cell (Kernel.cellRow x0 q) (Kernel.cellRow x1 q))).symm.trans ?_
  refine (SumLaw.by_images (fun q => cell (Kernel.cellRow x0 q) (Kernel.cellRow x1 q))).trans ?_
  rw [sum_idx2]
  refine Finset.sum_congr rfl fun n _ => Finset.sum_congr rfl fun s _ => ?_
  show cell (Kernel.cellRow x0 _) (Kernel.cellRow x1 _) = cell (fun k => _) (fun k => _)
  rw [← ref_row x0 n s, ← ref_row' x1 n s]

end Cert.Yolo.Bridge

end
-- ==== Proof.lean ====
/-
  A YOLO-style detection loss over 16384 images of 7 × 7 cells with 30 numbers each: the kernel against its reference.

  Both programs compute, for every one of the 802816 cells, the same loss (Proof/Cell.lean: objectness, two
  intersections-over-union, the choice of the responsible box, coordinate, extent, confidence and class terms),
  add the losses up and divide by the batch size 16384.  They differ only in how the sum is arranged.  The kernel
  re-lays the arguments as [802816, 30], visits 49 blocks of 16384 cells, adds each block's losses up and adds the
  block sum to an accumulator that starts from zero at the first block; its one result block is the accumulator
  after the last block (Proof/KernelCell.lean).  The reference re-lays the arguments as [16384, 49, 30] and sums
  over images and cells in one reduction from zero (Proof/RefCell.lean; its run, Proof/RefRunW.lean).  Cell (n, s) of the second arrangement is
  cell 49 n + s of the first, and a sum over all cells may be taken by blocks or by images, addition on the extended
  reals being commutative and associative (Proof/Bridge.lean, Proof/SumLaw.lean).  So the two results are equal for
  any arguments; the precondition (finite inputs) is not needed for the equality.

  The three frames: the kernel's two are the generated frame runs; the reference's is its run with the result
  dropped.  The idealized kernel is the kernel's own text read at the extended reals (no rewrite was applied), so
  there is nothing to preserve.
-/
import proofs.«165325_j53360673686126_1_alg».proof.Defs
import proofs.«165325_j53360673686126_1_alg».proof.Proof.Gen.Kernel
import proofs.«165325_j53360673686126_1_alg».proof.Proof.Gen.Kernel.Skeleton
import proofs.«165325_j53360673686126_1_alg».proof.Proof.Gen.Kernel.Launch
import proofs.«165325_j53360673686126_1_alg».proof.Proof.Gen.Kernel.Points
import proofs.«165325_j53360673686126_1_alg».proof.Proof.Gen.Kernel.Frame
import proofs.«165325_j53360673686126_1_alg».proof.Proof.Gen.KernelIdeal
import proofs.«165325_j53360673686126_1_alg».proof.Proof.Gen.KernelIdeal.Skeleton
import proofs.«165325_j53360673686126_1_alg».proof.Proof.Gen.KernelIdeal.Launch
import proofs.«165325_j53360673686126_1_alg».proof.Proof.Gen.KernelIdeal.Points
import proofs.«165325_j53360673686126_1_alg».proof.Proof.Gen.KernelIdeal.Frame
import proofs.«165325_j53360673686126_1_alg».proof.Proof.Gen.ReferenceIdeal
import proofs.«165325_j53360673686126_1_alg».proof.Proof.Gen.Pre_finite_inputs
import proofs.«165325_j53360673686126_1_alg».proof.Proof.KernelCell
import proofs.«165325_j53360673686126_1_alg».proof.Proof.RefCell
import proofs.«165325_j53360673686126_1_alg».proof.Proof.RefRunW
import proofs.«165325_j53360673686126_1_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level kernel runs and leaves its arguments as launched: the generated frame run. -/
theorem frame_kernel : @Cert.frame_Kernel Cert.Kernel.Gen.facts Cert.Pre_finite_inputs.Gen.facts :=
  fun m ρ _ => Cert.Kernel.Gen.frame m ρ

/-- So does the kernel read at the extended reals. -/
theorem frame_kernelIdeal : @Cert.frame_KernelIdeal Cert.KernelIdeal.Gen.facts Cert.Pre_finite_inputs.Gen.facts :=
  fun m ρ _ => Cert.KernelIdeal.Gen.frame m ρ

/-- The reference runs and leaves its arguments as launched: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.Yolo.RefRun.run (F := Ideal) m ρ)

/-- From memories agreeing on the arguments both programs end with the same number: the sum over all cells of
    their losses, from zero, divided by 16384 — the kernel's taken block by block, the reference's image by image. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.Yolo.Kernel.run m ρ, ?_⟩
  refine (θ_run Cert.ReferenceIdeal.defs _ _).mono (fun _ h c => ⟨(h c).1.trans ?_, (h c).2⟩)
    (Cert.Yolo.RefRun.run (F := Ideal) m' ρ')
  rw [(hagree c).1, (hagree c).2, Cert.Yolo.Ref.ref_total]
  funext i
  show Ideal.div _ (Ideal.ofBits .f32 0x46800000#32)
    = Ideal.div (Cert.Yolo.Kernel.result m c _) (Ideal.ofBits .f32 0x46800000#32)
  refine congrArg (fun z => Ideal.div z (Ideal.ofBits .f32 0x46800000#32)) ?_
  exact ((Cert.Yolo.Kernel.result_apply m c _).trans (congrArg (_ + ·) (Cert.Yolo.Bridge.totals_agree _ _))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
